-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S1x3 : Shape := ⟨2, ![1, 3]⟩
abbrev S1 : Shape := ⟨1, ![1]⟩
abbrev S2x32000000 : Shape := ⟨2, ![2, 32000000]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S1x3 : S_.BroadcastsInDim S1x3 (![] : Fin 0 → Fin S1x3.rank)
  reducesTo_S1x3_S_d0_1 : S1x3.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S1000000x3 .f32) (main_arg1 : FVec F S1x3 .f32) (main_arg2 : FVec F S1 .f32) (main_arg3 : IVec S2x32000000 32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S1x3 .f32 := Host.absf main_arg1
  let main_cst_0 : FVec F S_ .f32 := constant S_ .f32 0x7F800000#32
  let main_v5 : FVec F S1x3 .f32 := broadcastInDim S1x3 ![] bcast_S_S1x3 main_cst_0
  let main_v6 : IVec S1x3 1 := cmpf .olt main_v4 main_v5
  let main_c_1 : IVec S_ 1 := constantI S_ 1 1#1
  let main_v7 : IVec S_ 1 := (fun x v => Host.reduce IntOp.andi x v reducesTo_S1x3_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S1000000x3 : Shape := ⟨2, ![1000000, 3]⟩
abbrev S1x3 : Shape := ⟨2, ![1, 3]⟩
abbrev S1 : Shape := ⟨1, ![1]⟩
abbrev S2x32000000 : Shape := ⟨2, ![2, 32000000]⟩
abbrev S1000000 : Shape := ⟨1, ![1000000]⟩
abbrev S1x32000000 : Shape := ⟨2, ![1, 32000000]⟩
abbrev S32000000 : Shape := ⟨1, ![32000000]⟩
abbrev S33000000 : Shape := ⟨1, ![33000000]⟩
abbrev S_ : Shape := ⟨0, ![]⟩
abbrev S33000000x1 : Shape := ⟨2, ![33000000, 1]⟩
abbrev S1000000x1 : Shape := ⟨2, ![1000000, 1]⟩
abbrev S1003520x3 : Shape := ⟨2, ![1003520, 3]⟩
abbrev S1003520x1 : Shape := ⟨2, ![1003520, 1]⟩
abbrev S4096x3 : Shape := ⟨2, ![4096, 3]⟩
abbrev S4096x1 : Shape := ⟨2, ![4096, 1]⟩
abbrev S3x1 : Shape := ⟨2, ![3, 1]⟩
abbrev S33030144 : Shape := ⟨1, ![33030144]⟩
abbrev S258048x128 : Shape := ⟨2, ![258048, 128]⟩
abbrev S4096x128 : Shape := ⟨2, ![4096, 128]⟩
abbrev S1x1 : Shape := ⟨2, ![1, 1]⟩

abbrev nBuf : Space → Nat
  | .hbm => 81
  | .vmem => 17
  | .smem => 0
  | _ => 0

abbrev bufTy : (tb : Table) → Fin (tcTables nBuf tb) → BufTy
  | .hbm, ⟨0, _⟩ => ⟨S1000000x3, .f32⟩
  | .hbm, ⟨1, _⟩ => ⟨S1x3, .f32⟩
  | .hbm, ⟨2, _⟩ => ⟨S1, .f32⟩
  | .hbm, ⟨3, _⟩ => ⟨S2x32000000, .i32⟩
  | .hbm, ⟨4, _⟩ => ⟨S1000000, .i32⟩
  | .hbm, ⟨5, _⟩ => ⟨S1x32000000, .i32⟩
  | .hbm, ⟨6, _⟩ => ⟨S32000000, .i32⟩
  | .hbm, ⟨7, _⟩ => ⟨S33000000, .i32⟩
  | .hbm, ⟨8, _⟩ => ⟨S1x32000000, .i32⟩
  | .hbm, ⟨9, _⟩ => ⟨S32000000, .i32⟩
  | .hbm, ⟨10, _⟩ => ⟨S33000000, .i32⟩
  | .hbm, ⟨11, _⟩ => ⟨S_, .f32⟩
  | .hbm, ⟨12, _⟩ => ⟨S33000000, .f32⟩
  | .hbm, ⟨13, _⟩ => ⟨S_, .f32⟩
  | .hbm, ⟨14, _⟩ => ⟨S1000000, .f32⟩
  | .hbm, ⟨15, _⟩ => ⟨S33000000x1, .i32⟩
  | .hbm, ⟨16, _⟩ => ⟨S1000000, .f32⟩
  | .hbm, ⟨17, _⟩ => ⟨S1000000x1, .f32⟩
  | .hbm, ⟨18, _⟩ => ⟨S_, .i32⟩
  | .hbm, ⟨19, _⟩ => ⟨S_, .f32⟩
  | .hbm, ⟨20, _⟩ => ⟨S1003520x3, .f32⟩
  | .hbm, ⟨21, _⟩ => ⟨S_, .i32⟩
  | .hbm, ⟨22, _⟩ => ⟨S_, .f32⟩
  | .hbm, ⟨23, _⟩ => ⟨S1003520x1, .f32⟩
  | .hbm, ⟨24, _⟩ => ⟨S1003520x1, .f32⟩
  | .hbm, ⟨25, _⟩ => ⟨S1003520x1, .f32⟩
  | .hbm, ⟨26, _⟩ => ⟨S1000000x1, .f32⟩
  | .hbm, ⟨27, _⟩ => ⟨S1000000x1, .f32⟩
  | .hbm, ⟨28, _⟩ => ⟨S_, .i32⟩
  | .hbm, ⟨29, _⟩ => ⟨S33000000, .i32⟩
  | .hbm, ⟨30, _⟩ => ⟨S33000000, .i1⟩
  | .hbm, ⟨31, _⟩ => ⟨S_, .i32⟩
  | .hbm, ⟨32, _⟩ => ⟨S33000000, .i32⟩
  | .hbm, ⟨33, _⟩ => ⟨S33000000, .i32⟩
  | .hbm, ⟨34, _⟩ => ⟨S33000000, .i32⟩
  | .hbm, ⟨35, _⟩ => ⟨S33000000x1, .i32⟩
  | .hbm, ⟨36, _⟩ => ⟨S33000000x1, .f32⟩
  | .hbm, ⟨37, _⟩ => ⟨S33000000, .f32⟩
  | .hbm, ⟨38, _⟩ => ⟨S_, .i32⟩
  | .hbm, ⟨39, _⟩ => ⟨S33000000, .i32⟩
  | .hbm, ⟨40, _⟩ => ⟨S33000000, .i1⟩
  | .hbm, ⟨41, _⟩ => ⟨S_, .i32⟩
  | .hbm, ⟨42, _⟩ => ⟨S33000000, .i32⟩
  | .hbm, ⟨43, _⟩ => ⟨S33000000, .i32⟩
  | .hbm, ⟨44, _⟩ => ⟨S33000000, .i32⟩
  | .hbm, ⟨45, _⟩ => ⟨S33000000x1, .i32⟩
  | .hbm, ⟨46, _⟩ => ⟨S33000000x1, .f32⟩
  | .hbm, ⟨47, _⟩ => ⟨S33000000, .f32⟩
  | .hbm, ⟨48, _⟩ => ⟨S_, .i32⟩
  | .hbm, ⟨49, _⟩ => ⟨S33000000, .i32⟩
  | .hbm, ⟨50, _⟩ => ⟨S33000000, .i1⟩
  | .hbm, ⟨51, _⟩ => ⟨S_, .i32⟩
  | .hbm, ⟨52, _⟩ => ⟨S33000000, .i32⟩
  | .hbm, ⟨53, _⟩ => ⟨S33000000, .i32⟩
  | .hbm, ⟨54, _⟩ => ⟨S33000000, .i32⟩
  | .hbm, ⟨55, _⟩ => ⟨S33000000x1, .i32⟩
  | .hbm, ⟨56, _⟩ => ⟨S33000000x1, .f32⟩
  | .hbm, ⟨57, _⟩ => ⟨S33000000, .f32⟩
  | .hbm, ⟨58, _⟩ => ⟨S_, .i32⟩
  | .hbm, ⟨59, _⟩ => ⟨S_, .f32⟩
  | .hbm, ⟨60, _⟩ => ⟨S33030144, .f32⟩
  | .hbm, ⟨61, _⟩ => ⟨S_, .i32⟩
  | .hbm, ⟨62, _⟩ => ⟨S_, .f32⟩
  | .hbm, ⟨63, _⟩ => ⟨S33030144, .f32⟩
  | .hbm, ⟨64, _⟩ => ⟨S_, .i32⟩
  | .hbm, ⟨65, _⟩ => ⟨S_, .f32⟩
  | .hbm, ⟨66, _⟩ => ⟨S33030144, .f32⟩
  | .hbm, ⟨67, _⟩ => ⟨S258048x128, .f32⟩
  | .hbm, ⟨68, _⟩ => ⟨S258048x128, .f32⟩
  | .hbm, ⟨69, _⟩ => ⟨S258048x128, .f32⟩
  | .hbm, ⟨70, _⟩ => ⟨S258048x128, .f32⟩
  | .hbm, ⟨71, _⟩ => ⟨S33030144, .f32⟩
  | .hbm, ⟨72, _⟩ => ⟨S33000000, .f32⟩
  | .hbm, ⟨73, _⟩ => ⟨S33000000x1, .f32⟩
  | .hbm, ⟨74, _⟩ => ⟨S_, .f32⟩
  | .hbm, ⟨75, _⟩ => ⟨S1000000x1, .f32⟩
  | .hbm, ⟨76, _⟩ => ⟨S33000000x1, .i32⟩
  | .hbm, ⟨77, _⟩ => ⟨S1000000x1, .f32⟩
  | .hbm, ⟨78, _⟩ => ⟨S1x1, .f32⟩
  | .hbm, ⟨79, _⟩ => ⟨S1000000x1, .f32⟩
  | .hbm, ⟨80, _⟩ => ⟨S1000000x1, .f32⟩
  | .local _ .vmem, ⟨0, _⟩ => ⟨S4096x3, .f32⟩
  | .local _ .vmem, ⟨1, _⟩ => ⟨S4096x3, .f32⟩
  | .local _ .vmem, ⟨2, _⟩ => ⟨S1x3, .f32⟩
  | .local _ .vmem, ⟨3, _⟩ => ⟨S4096x1, .f32⟩
  | .local _ .vmem, ⟨4, _⟩ => ⟨S4096x1, .f32⟩
  | .local _ .vmem, ⟨5, _⟩ => ⟨S4096x1, .f32⟩
  | .local _ .vmem, ⟨6, _⟩ => ⟨S4096x1, .f32⟩
  | .local _ .vmem, ⟨7, _⟩ => ⟨S4096x1, .f32⟩
  | .local _ .vmem, ⟨8, _⟩ => ⟨S4096x1, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_c_1 : Ref sig .tc := ⟨.hbm, 21, rfl⟩
abbrev main_call1_v0 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_8 : Ref sig .tc := ⟨.hbm, 58, rfl⟩
abbrev main_call2_v0 : Ref sig .tc := ⟨.hbm, 59, rfl⟩
abbrev main_v41 : Ref sig .tc := ⟨.hbm, 60, rfl⟩
abbrev main_c_9 : Ref sig .tc := ⟨.hbm, 61, rfl⟩
abbrev main_call3_v0 : Ref sig .tc := ⟨.hbm, 62, rfl⟩
abbrev main_v42 : Ref sig .tc := ⟨.hbm, 63, rfl⟩
abbrev main_c_10 : Ref sig .tc := ⟨.hbm, 64, rfl⟩
abbrev main_call4_v0 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![63], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x32000000_S1x32000000_0_0 : S2x32000000.Slices ![0, 0] S1x32000000
  shapeCasts_S1x32000000_S32000000 : S1x32000000.ShapeCasts S32000000
  concatenates_S32000000_S1000000_S33000000_d0 : Shape.Concatenates [S32000000, S1000000] S33000000 0
  slices_S2x32000000_S1x32000000_1_0 : S2x32000000.Slices ![1, 0] S1x32000000
  bcast_S_S33000000 : S_.BroadcastsInDim S33000000 (![] : Fin 0 → Fin S33000000.rank)
  bcast_S_S1000000 : S_.BroadcastsInDim S1000000 (![] : Fin 0 → Fin S1000000.rank)
  bcast_S33000000_S33000000x1_0 : S33000000.BroadcastsInDim S33000000x1 (![0] : Fin 1 → Fin S33000000x1.rank)
  bcast_S1000000_S1000000x1_0 : S1000000.BroadcastsInDim S1000000x1 (![0] : Fin 1 → Fin S1000000x1.rank)
  pads_S1000000x3_S1003520x3_035200_000 : S1000000x3.Pads (![0, 0] : Fin 2 → Nat) ![3520, 0] ![0, 0] S1003520x3
  h_S_ : 0 < S_.numel
  pads_S1000000x1_S1003520x1_035200_000 : S1000000x1.Pads (![0, 0] : Fin 2 → Nat) ![3520, 0] ![0, 0] S1003520x1
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  inb_S1x3_S1x3_0_0 : ∀ a, (![0, 0] : Fin 2 → Nat) a + S1x3.size a ≤ S1x3.size a
  h_S1x3 : 0 < S1x3.numel
  transposes_S1x3_p1_0_S3x1 : S1x3.Transposes [1, 0] S3x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  slices_S1003520x1_S1000000x1_0_0 : S1003520x1.Slices ![0, 0] S1000000x1
  shapeCasts_S33000000x1_S33000000 : S33000000x1.ShapeCasts S33000000
  pads_S33000000_S33030144_0301440 : S33000000.Pads (![0] : Fin 1 → Nat) ![30144] ![0] S33030144
  shapeCasts_S33030144_S258048x128 : S33030144.ShapeCasts S258048x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S258048x128_S33030144 : S258048x128.ShapeCasts S33030144
  slices_S33030144_S33000000_0 : S33030144.Slices ![0] S33000000
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  scatter_S1000000_S33000000x1_S33000000_n_0_0_1_wf : ScatterDims.WF S1000000 S33000000x1 S33000000 [] [0] [0] 1
  dot_S4096x3_S3x1_S4096x1_1_0_0_1_n_n_wf : DotDims.WF S4096x3 S3x1 S4096x1 [1] [0] [0] [1] [] []
  gather_S1000000x1_S33000000x1_S33000000x1_1_0_n_n_0_1_11_wf : GatherDims.WF S1000000x1 S33000000x1 S33000000x1 [1] [0] [] [0] [] 1 ![1, 1]
  scatter_S1000000x1_S33000000x1_S33000000x1_1_0_0_1_wf : ScatterDims.WF S1000000x1 S33000000x1 S33000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S1003520x3.size a
  hwx0_0 : ∀ i : grid0.Coords, EltTy.bits .f32 = 32 ∨ (Rect.block (s := S1003520x3) S4096x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x3.size a ≤ S1x3.size a
  hwx0_1 : ∀ i : grid0.Coords, EltTy.bits .f32 = 32 ∨ (Rect.block (s := S1x3) S1x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S1003520x1.size a
  hwx0_2 : ∀ i : grid0.Coords, EltTy.bits .f32 = 32 ∨ (Rect.block (s := S1003520x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S1003520x1.size a
  hwx0_3 : ∀ i : grid0.Coords, EltTy.bits .f32 = 32 ∨ (Rect.block (s := S1003520x1) S4096x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S1003520x1.size a
  hwx0_4 : ∀ i : grid0.Coords, EltTy.bits .f32 = 32 ∨ (Rect.block (s := S1003520x1) S4096x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S258048x128.size a
  hwx1_0 : ∀ i : grid1.Coords, EltTy.bits .f32 = 32 ∨ (Rect.block (s := S258048x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S258048x128.size a
  hwx1_1 : ∀ i : grid1.Coords, EltTy.bits .f32 = 32 ∨ (Rect.block (s := S258048x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S258048x128.size a
  hwx1_2 : ∀ i : grid1.Coords, EltTy.bits .f32 = 32 ∨ (Rect.block (s := S258048x128) S4096x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S258048x128.size a
  hwx1_3 : ∀ i : grid1.Coords, EltTy.bits .f32 = 32 ∨ (Rect.block (s := S258048x128) S4096x128.size (cc1_transform_3 i) (hinb1_3 i)).WholeWords (EltTy.packing .f32)

variable [Facts₀]

def scatter_S1000000_S33000000x1_S33000000_n_0_0_1 : ScatterDims S1000000 S33000000x1 S33000000 where
  updateWindowDims := []
  insertedWindowDims := [0]
  scatterDimsToOperandDims := [0]
  indexVectorDim := 1
  wf := scatter_S1000000_S33000000x1_S33000000_n_0_0_1_wf
def dot_S4096x3_S3x1_S4096x1_1_0_0_1_n_n : DotDims S4096x3 S3x1 S4096x1 where
  lhsContracting := [1]
  rhsContracting := [0]
  lhsNonContracting := [0]
  rhsNonContracting := [1]
  lhsBatch := []
  rhsBatch := []
  wf := dot_S4096x3_S3x1_S4096x1_1_0_0_1_n_n_wf
def gather_S1000000x1_S33000000x1_S33000000x1_1_0_n_n_0_1_11 : GatherDims S1000000x1 S33000000x1 S33000000x1 where
  offsetDims := [1]
  collapsedSliceDims := [0]
  operandBatchingDims := []
  startIndicesBatchingDims := []
  startIndexMap := [0]
  indexVectorDim := 1
  sliceSizes := ![1, 1]
  wf := gather_S1000000x1_S33000000x1_S33000000x1_1_0_n_n_0_1_11_wf
def scatter_S1000000x1_S33000000x1_S33000000x1_1_0_0_1 : ScatterDims S1000000x1 S33000000x1 S33000000x1 where
  updateWindowDims := [1]
  insertedWindowDims := [0]
  scatterDimsToOperandDims := [0]
  indexVectorDim := 1
  wf := scatter_S1000000x1_S33000000x1_S33000000x1_1_0_0_1_wf

abbrev win0_0 : Pipeline.Window sig grid0 :=
  Pipeline.Window.ofSpec (Memref.whole main_v12) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S4096x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S4096x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v44) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x3 : Shape := ⟨2, ![1000000, 3]⟩
abbrev S1x3 : Shape := ⟨2, ![1, 3]⟩
abbrev S1 : Shape := ⟨1, ![1]⟩
abbrev S2x32000000 : Shape := ⟨2, ![2, 32000000]⟩
abbrev S1000000 : Shape := ⟨1, ![1000000]⟩
abbrev S1x32000000 : Shape := ⟨2, ![1, 32000000]⟩
abbrev S32000000 : Shape := ⟨1, ![32000000]⟩
abbrev S33000000 : Shape := ⟨1, ![33000000]⟩
abbrev S_ : Shape := ⟨0, ![]⟩
abbrev S33000000x1 : Shape := ⟨2, ![33000000, 1]⟩
abbrev S3x1 : Shape := ⟨2, ![3, 1]⟩
abbrev S1000000x1 : Shape := ⟨2, ![1000000, 1]⟩
abbrev S1x1 : Shape := ⟨2, ![1, 1]⟩

abbrev nBuf : Space → Nat
  | .hbm => 64
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S1x3, .f32⟩
  | .hbm, ⟨2, _⟩ => ⟨S1, .f32⟩
  | .hbm, ⟨3, _⟩ => ⟨S2x32000000, .i32⟩
  | .hbm, ⟨4, _⟩ => ⟨S1000000, .i32⟩
  | .hbm, ⟨5, _⟩ => ⟨S1x32000000, .i32⟩
  | .hbm, ⟨6, _⟩ => ⟨S32000000, .i32⟩
  | .hbm, ⟨7, _⟩ => ⟨S33000000, .i32⟩
  | .hbm, ⟨8, _⟩ => ⟨S1x32000000, .i32⟩
  | .hbm, ⟨9, _⟩ => ⟨S32000000, .i32⟩
  | .hbm, ⟨10, _⟩ => ⟨S33000000, .i32⟩
  | .hbm, ⟨11, _⟩ => ⟨S_, .f32⟩
  | .hbm, ⟨12, _⟩ => ⟨S33000000, .f32⟩
  | .hbm, ⟨13, _⟩ => ⟨S_, .f32⟩
  | .hbm, ⟨14, _⟩ => ⟨S1000000, .f32⟩
  | .hbm, ⟨15, _⟩ => ⟨S33000000x1, .i32⟩
  | .hbm, ⟨16, _⟩ => ⟨S1000000, .f32⟩
  | .hbm, ⟨17, _⟩ => ⟨S_, .f32⟩
  | .hbm, ⟨18, _⟩ => ⟨S1000000, .f32⟩
  | .hbm, ⟨19, _⟩ => ⟨S1000000, .i1⟩
  | .hbm, ⟨20, _⟩ => ⟨S1000000, .f32⟩
  | .hbm, ⟨21, _⟩ => ⟨S_, .f32⟩
  | .hbm, ⟨22, _⟩ => ⟨S_, .f32⟩
  | .hbm, ⟨23, _⟩ => ⟨S1000000, .f32⟩
  | .hbm, ⟨24, _⟩ => ⟨S1000000, .f32⟩
  | .hbm, ⟨25, _⟩ => ⟨S_, .i32⟩
  | .hbm, ⟨26, _⟩ => ⟨S33000000, .i32⟩
  | .hbm, ⟨27, _⟩ => ⟨S33000000, .i1⟩
  | .hbm, ⟨28, _⟩ => ⟨S_, .i32⟩
  | .hbm, ⟨29, _⟩ => ⟨S33000000, .i32⟩
  | .hbm, ⟨30, _⟩ => ⟨S33000000, .i32⟩
  | .hbm, ⟨31, _⟩ => ⟨S33000000, .i32⟩
  | .hbm, ⟨32, _⟩ => ⟨S33000000x1, .i32⟩
  | .hbm, ⟨33, _⟩ => ⟨S33000000, .f32⟩
  | .hbm, ⟨34, _⟩ => ⟨S_, .i32⟩
  | .hbm, ⟨35, _⟩ => ⟨S33000000, .i32⟩
  | .hbm, ⟨36, _⟩ => ⟨S33000000, .i1⟩
  | .hbm, ⟨37, _⟩ => ⟨S_, .i32⟩
  | .hbm, ⟨38, _⟩ => ⟨S33000000, .i32⟩
  | .hbm, ⟨39, _⟩ => ⟨S33000000, .i32⟩
  | .hbm, ⟨40, _⟩ => ⟨S33000000, .i32⟩
  | .hbm, ⟨41, _⟩ => ⟨S33000000x1, .i32⟩
  | .hbm, ⟨42, _⟩ => ⟨S33000000, .f32⟩
  | .hbm, ⟨43, _⟩ => ⟨S33000000, .f32⟩
  | .hbm, ⟨44, _⟩ => ⟨S3x1, .f32⟩
  | .hbm, ⟨45, _⟩ => ⟨S1000000x1, .f32⟩
  | .hbm, ⟨46, _⟩ => ⟨S33000000x1, .f32⟩
  | .hbm, ⟨47, _⟩ => ⟨S_, .i32⟩
  | .hbm, ⟨48, _⟩ => ⟨S33000000, .i32⟩
  | .hbm, ⟨49, _⟩ => ⟨S33000000, .i1⟩
  | .hbm, ⟨50, _⟩ => ⟨S_, .i32⟩
  | .hbm, ⟨51, _⟩ => ⟨S33000000, .i32⟩
  | .hbm, ⟨52, _⟩ => ⟨S33000000, .i32⟩
  | .hbm, ⟨53, _⟩ => ⟨S33000000, .i32⟩
  | .hbm, ⟨54, _⟩ => ⟨S33000000x1, .i32⟩
  | .hbm, ⟨55, _⟩ => ⟨S33000000x1, .f32⟩
  | .hbm, ⟨56, _⟩ => ⟨S33000000x1, .f32⟩
  | .hbm, ⟨57, _⟩ => ⟨S_, .f32⟩
  | .hbm, ⟨58, _⟩ => ⟨S1000000x1, .f32⟩
  | .hbm, ⟨59, _⟩ => ⟨S33000000x1, .i32⟩
  | .hbm, ⟨60, _⟩ => ⟨S1000000x1, .f32⟩
  | .hbm, ⟨61, _⟩ => ⟨S1x1, .f32⟩
  | .hbm, ⟨62, _⟩ => ⟨S1000000x1, .f32⟩
  | .hbm, ⟨63, _⟩ => ⟨S1000000x1, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x32000000_S1x32000000_0_0 : S2x32000000.Slices ![0, 0] S1x32000000
  shapeCasts_S1x32000000_S32000000 : S1x32000000.ShapeCasts S32000000
  concatenates_S32000000_S1000000_S33000000_d0 : Shape.Concatenates [S32000000, S1000000] S33000000 0
  slices_S2x32000000_S1x32000000_1_0 : S2x32000000.Slices ![1, 0] S1x32000000
  bcast_S_S33000000 : S_.BroadcastsInDim S33000000 (![] : Fin 0 → Fin S33000000.rank)
  bcast_S_S1000000 : S_.BroadcastsInDim S1000000 (![] : Fin 0 → Fin S1000000.rank)
  bcast_S33000000_S33000000x1_0 : S33000000.BroadcastsInDim S33000000x1 (![0] : Fin 1 → Fin S33000000x1.rank)
  transposes_S1x3_S3x1_1_0 : S1x3.Transposes [1, 0] S3x1
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  scatter_S1000000_S33000000x1_S33000000_n_0_0_1_wf : ScatterDims.WF S1000000 S33000000x1 S33000000 [] [0] [0] 1
  gather_S1000000_S33000000x1_S33000000_n_0_n_n_0_1_1_wf : GatherDims.WF S1000000 S33000000x1 S33000000 [] [0] [] [0] [] 1 ![1]
  dot_S1000000x3_S3x1_S1000000x1_1_0_0_1_n_n_wf : DotDims.WF S1000000x3 S3x1 S1000000x1 [1] [0] [0] [1] [] []
  gather_S1000000x1_S33000000x1_S33000000x1_1_0_n_n_0_1_11_wf : GatherDims.WF S1000000x1 S33000000x1 S33000000x1 [1] [0] [] [0] [] 1 ![1, 1]
  scatter_S1000000x1_S33000000x1_S33000000x1_1_0_0_1_wf : ScatterDims.WF S1000000x1 S33000000x1 S33000000x1 [1] [0] [0] 1

variable [Facts₀]

def scatter_S1000000_S33000000x1_S33000000_n_0_0_1 : ScatterDims S1000000 S33000000x1 S33000000 where
  updateWindowDims := []
  insertedWindowDims := [0]
  scatterDimsToOperandDims := [0]
  indexVectorDim := 1
  wf := scatter_S1000000_S33000000x1_S33000000_n_0_0_1_wf
def gather_S1000000_S33000000x1_S33000000_n_0_n_n_0_1_1 : GatherDims S1000000 S33000000x1 S33000000 where
  offsetDims := []
  collapsedSliceDims := [0]
  operandBatchingDims := []
  startIndicesBatchingDims := []
  startIndexMap := [0]
  indexVectorDim := 1
  sliceSizes := ![1]
  wf := gather_S1000000_S33000000x1_S33000000_n_0_n_n_0_1_1_wf
def dot_S1000000x3_S3x1_S1000000x1_1_0_0_1_n_n : DotDims S1000000x3 S3x1 S1000000x1 where
  lhsContracting := [1]
  rhsContracting := [0]
  lhsNonContracting := [0]
  rhsNonContracting := [1]
  lhsBatch := []
  rhsBatch := []
  wf := dot_S1000000x3_S3x1_S1000000x1_1_0_0_1_n_n_wf
def gather_S1000000x1_S33000000x1_S33000000x1_1_0_n_n_0_1_11 : GatherDims S1000000x1 S33000000x1 S33000000x1 where
  offsetDims := [1]
  collapsedSliceDims := [0]
  operandBatchingDims := []
  startIndicesBatchingDims := []
  startIndexMap := [0]
  indexVectorDim := 1
  sliceSizes := ![1, 1]
  wf := gather_S1000000x1_S33000000x1_S33000000x1_1_0_n_n_0_1_11_wf
def scatter_S1000000x1_S33000000x1_S33000000x1_1_0_0_1 : ScatterDims S1000000x1 S33000000x1 S33000000x1 where
  updateWindowDims := [1]
  insertedWindowDims := [0]
  scatterDimsToOperandDims := [0]
  indexVectorDim := 1
  wf := scatter_S1000000x1_S33000000x1_S33000000x1_1_0_0_1_wf

class Facts : Prop extends Facts₀ where

variable [Facts]
-- ==== Proof.KernelRun.lean ====
/-
  The idealized kernel program's run with its RESULT named. The program is fourteen segments: stretches of host
  operations around two pipelined regions. Every buffer's contents at each boundary are a fold through the segments
  from the launch memory; at the last boundary they are `Gen.W14`. Every weakly fair execution terminates, nothing
  faults, and it ends with every unscoped buffer at its last-boundary contents — in particular the result buffer
  `main_v56`, which is what the value proof reads, beside the four argument arrays as launched.
-/
import proofs.«175853_j19602230739360_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault, the
    result buffer ending at the last boundary's contents and the four arguments as launched. -/
theorem run : θ_run defs (onTc (τ := τ) (main (F := F))) ⟨m, fun _ => 0, ρ⟩ (fun r => ∀ c : Dev nD,
      r.2.mem ((c.tc : Thread nD τ).loc main_v56) = W14 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v56 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c)⟩)

end Cert.KernelIdeal.NamedRun

end
-- ==== Proof.KernelHost.lean ====
/-
  The idealized kernel program's buffers at the boundaries of its segments, as pure terms of the four argument arrays.
  The program: row / col = the edge list's two rows with the self loops (0 … N−1) appended; deg = the number of edges
  into each node (a segment sum of ones over col); the node region takes x and deg, both padded with zero rows to a
  whole number of row blocks, and the weight row; between the regions the per-node factor and the per-node feature are
  cut back to N rows, gathered out to the edges at the wrapped row numbers, padded with zeros to a whole number of edge
  blocks and laid out as [258048, 128]; after the edge region the product is flattened, cut back to the M edges, summed
  into its target node and the bias is added.
  Each lemma opens the fold of host operations from one boundary back to the previous one and stops there.
-/
import proofs.«175853_j19602230739360_1_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

/-! ## The pure terms -/

/-- Source node of every edge: row 0 of the edge list, then the self loops. -/
def rowK (x3 : (⟨S2x32000000, .i32⟩ : BufTy).Contents (Elt Ideal)) : (⟨S33000000, .i32⟩ : BufTy).Contents (Elt Ideal) :=
  concatenate S33000000 0 [⟨S32000000, shapeCast S32000000 (extractStridedSlice S1x32000000 ![0, 0] x3 slices_S2x32000000_S1x32000000_0_0) shapeCasts_S1x32000000_S32000000⟩, ⟨S1000000, iotaInDim S1000000 32 0⟩] concatenates_S32000000_S1000000_S33000000_d0

/-- Target node of every edge: row 1 of the edge list, then the self loops. -/
def colK (x3 : (⟨S2x32000000, .i32⟩ : BufTy).Contents (Elt Ideal)) : (⟨S33000000, .i32⟩ : BufTy).Contents (Elt Ideal) :=
  concatenate S33000000 0 [⟨S32000000, shapeCast S32000000 (extractStridedSlice S1x32000000 ![1, 0] x3 slices_S2x32000000_S1x32000000_1_0) shapeCasts_S1x32000000_S32000000⟩, ⟨S1000000, iotaInDim S1000000 32 0⟩] concatenates_S32000000_S1000000_S33000000_d0

/-- The degree of every node: ones summed into the target nodes. -/
def degK (x3 : (⟨S2x32000000, .i32⟩ : BufTy).Contents (Elt Ideal)) : (⟨S1000000, .f32⟩ : BufTy).Contents (Elt Ideal) :=
  Host.scatterAdd scatter_S1000000_S33000000x1_S33000000_n_0_0_1
    (broadcastInDim S1000000 ![] bcast_S_S1000000 (constant (F := Ideal) S_ .f32 0x00000000#32))
    (broadcastInDim S33000000x1 ![0] bcast_S33000000_S33000000x1_0 (colK x3))
    (broadcastInDim S33000000 ![] bcast_S_S33000000 (constant (F := Ideal) S_ .f32 0x3F800000#32))

/-- A column of row numbers with the negative ones wrapped by N. -/
def wrapK (r : (⟨S33000000, .i32⟩ : BufTy).Contents (Elt Ideal)) : (⟨S33000000, .i32⟩ : BufTy).Contents (Elt Ideal) :=
  select (cmpi .slt r (broadcastInDim S33000000 ![] bcast_S_S33000000 (constantI S_ 32 0#32)))
    (addi r (broadcastInDim S33000000 ![] bcast_S_S33000000 (constantI S_ 32 1000000#32))) r

/-- The padding value: the integer zero converted. -/
def zeroK : (⟨S_, .f32⟩ : BufTy).Contents (Elt Ideal) := sitofp (F := Ideal) .f32 (constantI S_ 32 0#32)

/-- A per-node column [1003520, 1] cut back to the N nodes, gathered out to the M edges at a column of row numbers
    (negative ones wrapped), padded with zeros to a whole number of edge blocks and laid out as [258048, 128]. -/
def edgeLayK (nodeCol : (⟨S1003520x1, .f32⟩ : BufTy).Contents (Elt Ideal)) (r : (⟨S33000000, .i32⟩ : BufTy).Contents (Elt Ideal)) :
    (⟨S258048x128, .f32⟩ : BufTy).Contents (Elt Ideal) :=
  shapeCast S258048x128
    (pad S33030144 ![0] ![30144] ![0]
      (shapeCast S33000000
        (Host.gather gather_S1000000x1_S33000000x1_S33000000x1_1_0_n_n_0_1_11
          (extractStridedSlice S1000000x1 ![0, 0] nodeCol slices_S1003520x1_S1000000x1_0_0)
          (broadcastInDim S33000000x1 ![0] bcast_S33000000_S33000000x1_0 (wrapK r)))
        shapeCasts_S33000000x1_S33000000)
      zeroK pads_S33000000_S33030144_0301440 h_S_)
    shapeCasts_S33030144_S258048x128

/-- The update column the last segment sum takes: the edge region's array flattened and cut back to the M edges. -/
def updK (msg2 : (⟨S258048x128, .f32⟩ : BufTy).Contents (Elt Ideal)) : (⟨S33000000x1, .f32⟩ : BufTy).Contents (Elt Ideal) :=
  broadcastInDim S33000000x1 ![0] bcast_S33000000_S33000000x1_0
    (extractStridedSlice S33000000 ![0] (shapeCast S33030144 msg2 shapeCasts_S258048x128_S33030144) slices_S33030144_S33000000_0)

/-- The program's result from the target nodes, an update column and the bias: the column summed into its target
    nodes from zero, the bias added to every node. -/
def outK (col : (⟨S33000000, .i32⟩ : BufTy).Contents (Elt Ideal)) (upd : (⟨S33000000x1, .f32⟩ : BufTy).Contents (Elt Ideal))
    (b : (⟨S1, .f32⟩ : BufTy).Contents (Elt Ideal)) : (⟨S1000000x1, .f32⟩ : BufTy).Contents (Elt Ideal) :=
  addf
    (Host.scatterAdd scatter_S1000000x1_S33000000x1_S33000000x1_1_0_0_1
      (broadcastInDim S1000000x1 ![] bcast_S_S1000000x1 (constant (F := Ideal) S_ .f32 0x00000000#32))
      (broadcastInDim S33000000x1 ![0] bcast_S33000000_S33000000x1_0 col) upd)
    (broadcastInDim S1000000x1 ![0, 1] bcast_S1x1_S1000000x1_0_1 (broadcastInDim S1x1 ![1] bcast_S1_S1x1_1 b))

variable (m : (ℓ : Loc nD τ sig) → Buf (Elt Ideal) ℓ) (ρ : Dev nD → PrngReg)

/-! ## Region 0's entry -/

/-- The node features padded with zero rows. -/
theorem W4_v12 (c : Dev nD) : W4 m ρ c (Proc.devRef .tc main_v12)
    = pad S1003520x3 ![0, 0] ![3520, 0] ![0, 0] (m ((c.tc : Thread nD τ).loc main_arg0)) zeroK pads_S1000000x3_S1003520x3_035200_000 h_S_ := by
  dsimp only [W4, W3, W2, W1]
  simp (disch := decide) only [after_cons, after_nil, nullary_result', unary_result', binary_result', ternary_result', reshape_result',
    nullary_result_ne', unary_result_ne', binary_result_ne', ternary_result_ne', reshape_result_ne', cast_eq]
  rfl

/-- The degrees as a column, padded with zero rows. -/
theorem W4_v13 (c : Dev nD) : W4 m ρ c (Proc.devRef .tc main_v13)
    = pad S1003520x1 ![0, 0] ![3520, 0] ![0, 0] (broadcastInDim S1000000x1 ![0] bcast_S1000000_S1000000x1_0 (degK (m ((c.tc : Thread nD τ).loc main_arg3)))) zeroK pads_S1000000x1_S1003520x1_035200_000 h_S_ := by
  dsimp only [W4, W3, W2, W1]
  simp (disch := decide) only [after_cons, after_nil, nullary_result', unary_result', binary_result', ternary_result', reshape_result',
    nullary_result_ne', unary_result_ne', binary_result_ne', ternary_result_ne', reshape_result_ne', cast_eq]
  rfl

/-- The weight row is the argument. -/
theorem W4_arg1 (c : Dev nD) : W4 m ρ c (Proc.devRef .tc main_arg1) = m ((c.tc : Thread nD τ).loc main_arg1) := by
  dsimp only [W4, W3, W2, W1]
  simp (disch := decide) only [after_cons, after_nil, nullary_result', unary_result', binary_result', ternary_result', reshape_result',
    nullary_result_ne', unary_result_ne', binary_result_ne', ternary_result_ne', reshape_result_ne', cast_eq]

theorem W4_arg2 (c : Dev nD) : W4 m ρ c (Proc.devRef .tc main_arg2) = m ((c.tc : Thread nD τ).loc main_arg2) := by
  dsimp only [W4, W3, W2, W1]
  simp (disch := decide) only [after_cons, after_nil, nullary_result', unary_result', binary_result', ternary_result', reshape_result',
    nullary_result_ne', unary_result_ne', binary_result_ne', ternary_result_ne', reshape_result_ne', cast_eq]

/-- The edges' source nodes. -/
theorem W4_v3 (c : Dev nD) : W4 m ρ c (Proc.devRef .tc main_v3) = rowK (m ((c.tc : Thread nD τ).loc main_arg3)) := by
  dsimp only [W4, W3, W2, W1]
  simp (disch := decide) only [after_cons, after_nil, nullary_result', unary_result', binary_result', ternary_result', reshape_result',
    nullary_result_ne', unary_result_ne', binary_result_ne', ternary_result_ne', reshape_result_ne', cast_eq]
  rfl

/-- The edges' target nodes. -/
theorem W4_v6 (c : Dev nD) : W4 m ρ c (Proc.devRef .tc main_v6) = colK (m ((c.tc : Thread nD τ).loc main_arg3)) := by
  dsimp only [W4, W3, W2, W1]
  simp (disch := decide) only [after_cons, after_nil, nullary_result', unary_result', binary_result', ternary_result', reshape_result',
    nullary_result_ne', unary_result_ne', binary_result_ne', ternary_result_ne', reshape_result_ne', cast_eq]
  rfl

/-! ## Region 1's entry, from region 0's exit -/

/-- The source node's factor, gathered out to the edges. -/
theorem W12_v44 (c : Dev nD) : W12 m ρ c (Proc.devRef .tc main_v44)
    = edgeLayK (W5 m ρ c (Proc.devRef .tc main_v14_1)) (W5 m ρ c (Proc.devRef .tc main_v3)) := by
  dsimp only [W12, W11, W10, W9, W8, W7, W6]
  generalize W5 m ρ c = w5
  simp (disch := decide) only [after_cons, after_nil, nullary_result', unary_result', binary_result', ternary_result', reshape_result',
    nullary_result_ne', unary_result_ne', binary_result_ne', ternary_result_ne', reshape_result_ne', cast_eq]
  rfl

/-- The target node's factor, gathered out to the edges. -/
theorem W12_v45 (c : Dev nD) : W12 m ρ c (Proc.devRef .tc main_v45)
    = edgeLayK (W5 m ρ c (Proc.devRef .tc main_v14_1)) (W5 m ρ c (Proc.devRef .tc main_v6)) := by
  dsimp only [W12, W11, W10, W9, W8, W7, W6]
  generalize W5 m ρ c = w5
  simp (disch := decide) only [after_cons, after_nil, nullary_result', unary_result', binary_result', ternary_result', reshape_result',
    nullary_result_ne', unary_result_ne', binary_result_ne', ternary_result_ne', reshape_result_ne', cast_eq]
  rfl

/-- The source node's feature, gathered out to the edges. -/
theorem W12_v46 (c : Dev nD) : W12 m ρ c (Proc.devRef .tc main_v46)
    = edgeLayK (W5 m ρ c (Proc.devRef .tc main_v14_0)) (W5 m ρ c (Proc.devRef .tc main_v3)) := by
  dsimp only [W12, W11, W10, W9, W8, W7, W6]
  generalize W5 m ρ c = w5
  simp (disch := decide) only [after_cons, after_nil, nullary_result', unary_result', binary_result', ternary_result', reshape_result',
    nullary_result_ne', unary_result_ne', binary_result_ne', ternary_result_ne', reshape_result_ne', cast_eq]
  rfl

/-- No operation between the regions writes the target nodes or the bias. -/
theorem W12_v6 (c : Dev nD) : W12 m ρ c (Proc.devRef .tc main_v6) = W5 m ρ c (Proc.devRef .tc main_v6) := by
  dsimp only [W12, W11, W10, W9, W8, W7, W6]
  generalize W5 m ρ c = w5
  simp (disch := decide) only [after_cons, after_nil, nullary_result', unary_result', binary_result', ternary_result', reshape_result',
    nullary_result_ne', unary_result_ne', binary_result_ne', ternary_result_ne', reshape_result_ne', cast_eq]

theorem W12_arg2 (c : Dev nD) : W12 m ρ c (Proc.devRef .tc main_arg2) = W5 m ρ c (Proc.devRef .tc main_arg2) := by
  dsimp only [W12, W11, W10, W9, W8, W7, W6]
  generalize W5 m ρ c = w5
  simp (disch := decide) only [after_cons, after_nil, nullary_result', unary_result', binary_result', ternary_result', reshape_result',
    nullary_result_ne', unary_result_ne', binary_result_ne', ternary_result_ne', reshape_result_ne', cast_eq]

/-! ## The result, from region 1's exit -/

theorem W14_v56 (c : Dev nD) : W14 m ρ c (Proc.devRef .tc main_v56)
    = outK (W13 m ρ c (Proc.devRef .tc main_v6)) (updK (W13 m ρ c (Proc.devRef .tc main_v47))) (W13 m ρ c (Proc.devRef .tc main_arg2)) := by
  dsimp only [W14]
  generalize W13 m ρ c = w13
  simp (disch := decide) only [after_cons, after_nil, nullary_result', unary_result', binary_result', ternary_result', reshape_result',
    nullary_result_ne', unary_result_ne', binary_result_ne', ternary_result_ne', reshape_result_ne', cast_eq]
  rfl

/-! ## Through the regions: a buffer that is none of a region's arrays keeps its contents -/

theorem W13_v6 (c : Dev nD) : W13 m ρ c (Proc.devRef .tc main_v6) = colK (m ((c.tc : Thread nD τ).loc main_arg3)) :=
  (W13_of_ne m ρ c main_v6 (by decide)).trans ((W12_v6 m ρ c).trans ((W5_of_ne m ρ c main_v6 (by decide)).trans (W4_v6 m ρ c)))

theorem W13_arg2 (c : Dev nD) : W13 m ρ c (Proc.devRef .tc main_arg2) = m ((c.tc : Thread nD τ).loc main_arg2) :=
  (W13_of_ne m ρ c main_arg2 (by decide)).trans ((W12_arg2 m ρ c).trans ((W5_of_ne m ρ c main_arg2 (by decide)).trans (W4_arg2 m ρ c)))

theorem W5_v3 (c : Dev nD) : W5 m ρ c (Proc.devRef .tc main_v3) = rowK (m ((c.tc : Thread nD τ).loc main_arg3)) :=
  (W5_of_ne m ρ c main_v3 (by decide)).trans (W4_v3 m ρ c)

theorem W5_v6 (c : Dev nD) : W5 m ρ c (Proc.devRef .tc main_v6) = colK (m ((c.tc : Thread nD τ).loc main_arg3)) :=
  (W5_of_ne m ρ c main_v6 (by decide)).trans (W4_v6 m ρ c)

/-- Region 0's two output arrays and region 1's, as the pipelines leave them. -/
theorem W5_v14_0 (c : Dev nD) : W5 m ρ c (Proc.devRef .tc main_v14_0) = (dat0 (V4 m ρ) c).arrAt 3 cfg0.N := W5_arr m ρ c 3
theorem W5_v14_1 (c : Dev nD) : W5 m ρ c (Proc.devRef .tc main_v14_1) = (dat0 (V4 m ρ) c).arrAt 4 cfg0.N := W5_arr m ρ c 4
theorem W13_v47 (c : Dev nD) : W13 m ρ c (Proc.devRef .tc main_v47) = (dat1 (V12 m ρ) c).arrAt 3 cfg1.N := W13_arr m ρ c 3

end Cert.KernelIdeal.HostValue

end
-- ==== Proof.LibGatherRows.lean ====
/-
  The host's gather of whole rows, read at an index given by coordinates: what `x[idx]` lowers to for a matrix
  `x : [N, C]` (or a vector `x : [N]`) and a column of M row numbers `idx : [M, 1]` (the index vector along the
  second axis). Row e of the result is row `idx[e, 0]` of the operand, the row number read as a signed integer and
  clamped into `[0, N − 1]` — a gather clamps every start index so that the slice fits, and the slice is one row.
  The clamped row depends on the row number's word alone (`clampRow`), so a matrix and a vector gathered at the same
  column of row numbers are read at the same rows.
-/
import Idealize.ShloMosaic.Lib.ValueIdx

noncomputable section

namespace Cert.GatherRows

open Idealize.ShloMosaic Idealize.ShloMosaic.ValueIdx

/-- A row number's word read signed and clamped into the rows `[0, N − 1]` of an operand with `N > 0` rows. -/
def clampRow (N : Nat) (hN : 0 < N) {w : Nat} (v : BitVec w) : Fin N := ⟨min v.toInt.toNat (N - 1), by omega⟩

/-- A word whose signed value is the row `n` clamps to `n`. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  have := n.isLt
  rw [h]; omega

variable {α : Type}

/-! ## Rows of a matrix: operand [N, C], row numbers [M, 1], result [M, C] -/

/-- The dimension numbers of `x[idx]` for a matrix: the result's second axis is the slice's (offset axis 1), operand
    axis 0 is collapsed and is the one the start index addresses, the slice is one whole row. Their conditions `wf`
    are decided on a program's literal shapes. -/
abbrev rowDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]` (signed, clamped) and column `c`. -/
theorem gather_rows_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowDims N C M wf) x idx (ix2 e c) = x (ix2 (clampRow N hN (idx (ix2 e (0 : Fin 1)))) c) := by
  have h0 : (rowDims N C M wf).start (ix2 e c) idx (0 : Fin 2) + (rowDims N C M wf).batchCoord (ix2 e c) (0 : Fin 2)
      + (rowDims N C M wf).offCoord (ix2 e c) (0 : Fin 2) = (clampRow N hN (idx (ix2 e (0 : Fin 1)))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C M wf).startIndexMap from List.mem_singleton.mpr rfl)]
    have hsi : (rowDims N C M wf).siIdx (ix2 e c) ⟨List.idxOf (0 : Fin 2) (rowDims N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowDims N C M wf).start (ix2 e c) idx (1 : Fin 2) + (rowDims N C M wf).batchCoord (ix2 e c) (1 : Fin 2)
      + (rowDims N C M wf).offCoord (ix2 e c) (1 : Fin 2) = c.val := by
    rw [GatherDims.batchCoord_eq_zero _ _ _ List.not_mem_nil]
    simp only [Nat.add_zero]
    unfold GatherDims.start
    rw [dif_neg (show (1 : Fin 2) ∉ (rowDims N C M wf).startIndexMap from
      fun h => absurd (show (1 : Nat) = 0 from congrArg Fin.val (List.mem_singleton.mp h)) (by decide)), Nat.zero_add]
    rfl
  unfold Host.gather
  congr 1
  funext a
  refine Fin.ext ?_
  match a with
  | ⟨0, _⟩ => exact h0
  | ⟨1, _⟩ => exact h1

/-! ## Elements of a vector: operand [N], row numbers [M, 1], result [M] -/

/-- The dimension numbers of `x[idx]` for a vector: no offset axis, the operand's one axis collapsed and addressed by
    the start index, the slice one element. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at element `idx[e, 0]` (signed, clamped) — the same row the matrix
    gather reads. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN (idx (ix2 e (0 : Fin 1))))) := by
  unfold Host.gather
  congr 1
  funext a
  obtain rfl : a = 0 := Subsingleton.elim _ _
  refine Fin.ext ?_
  show (vecDims N M wf).start (ix1 e) idx 0 + (vecDims N M wf).batchCoord (ix1 e) 0
    + (vecDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 e) ⟨List.idxOf (0 : Fin 1) (vecDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.GatherRows
-- ==== Proof.KernelLayout.lean ====
/-
  The kernel program's layout steps read at coordinates.
  * The update column: entry e of the M edges sits at row q, lane l of the edge region's array when e = q·128 + l.
  * An edge-length array in lanes: row q, lane l (with e = q·128 + l < M) of a per-node column gathered out to the edges
    is the column at the node the wrapped row number of edge e names, read signed and clamped into [0, N − 1]; the
    zero padding beyond the M edges and beyond the N nodes is never read there.
  * A matrix or column of N rows padded with zero rows: row n < N of the padded array is row n of the array.
-/
import proofs.«175853_j19602230739360_1_alg».proof.Proof.KernelHost
import proofs.«175853_j19602230739360_1_alg».proof.Proof.LibGatherRows
import Idealize.ShloMosaic.Lib.Pipeline.Value
import Idealize.ShloMosaic.Lib.ValueIdx
import Idealize.ShloMosaic.Lib.KernelVsHost

set_option maxRecDepth 16384

noncomputable section

namespace Cert.KernelIdeal.LayoutValue

open Cert.KernelIdeal Cert.KernelIdeal.Gen Cert.KernelIdeal.HostValue Cert.GatherRows Idealize.ShloMosaic Idealize.ShloMosaic.ValueIdx

/-- The node a row number names among the N = 1000000 nodes. -/
abbrev node (v : BitVec 32) : Fin 1000000 := clampRow 1000000 (by decide) v

/-- Entry e of the update column is the edge array at row q, lane l, when e = q·128 + l. -/
theorem updK_apply (msg2 : (⟨S258048x128, .f32⟩ : BufTy).Contents (Elt Ideal)) (e : Fin 33000000) (q : Fin 258048) (l : Fin 128)
    (h : e.val = q.val * 128 + l.val) : updK msg2 (ix2 e (0 : Fin 1)) = msg2 (ix2 q l) := by
  unfold updK
  have he : e.val < 33030144 := by have := e.isLt; omega
  refine (broadcastInDim_apply _ bcast_S33000000_S33000000x1_0 _ (ix2 e (0 : Fin 1)) (ix1 e) (fun a => match a with
    | ⟨0, _⟩ => by show e.val = if (33000000 : Nat) = 1 then 0 else e.val; rw [if_neg (by decide)])).trans ?_
  refine (extractStridedSlice_apply ![0] _ slices_S33030144_S33000000_0 (ix1 e) (ix1 (⟨e.val, he⟩ : Fin 33030144)) (fun a => match a with
    | ⟨0, _⟩ => by show e.val = 0 + e.val; omega)).trans ?_
  refine shapeCast_apply msg2 shapeCasts_S258048x128_S33030144 (ix1 (⟨e.val, he⟩ : Fin 33030144)) (ix2 q l) ?_
  rw [Shape.rowMajor_val_one, Shape.rowMajor_val_two]
  show q.val * 128 + l.val = e.val
  omega

/-- Row q, lane l of a per-node column laid out along the edges, at an edge e = q·128 + l below M: the column at the
    node the wrapped row number of edge e names. -/
theorem edgeLayK_apply (nodeCol : (⟨S1003520x1, .f32⟩ : BufTy).Contents (Elt Ideal)) (r : (⟨S33000000, .i32⟩ : BufTy).Contents (Elt Ideal))
    (q : Fin 258048) (l : Fin 128) (e : Fin 33000000) (h : e.val = q.val * 128 + l.val) (n' : Fin 1003520)
    (hn : n'.val = (node (wrapK r (ix1 e))).val) :
    edgeLayK nodeCol r (ix2 q l) = nodeCol (ix2 n' (0 : Fin 1)) := by
  unfold edgeLayK
  have he : e.val < 33030144 := by have := e.isLt; omega
  refine (shapeCast_apply _ shapeCasts_S33030144_S258048x128 (ix2 q l) (ix1 (⟨e.val, he⟩ : Fin 33030144)) ?_).trans ?_
  · rw [Shape.rowMajor_val_one, Shape.rowMajor_val_two]
    show e.val = q.val * 128 + l.val
    exact h
  refine (pad_apply_of_inside ![0] ![30144] ![0] _ zeroK pads_S33000000_S33030144_0301440 h_S_ (ix1 (⟨e.val, he⟩ : Fin 33030144)) (ix1 e) (fun a => match a with
    | ⟨0, _⟩ => by show e.val = 0 + e.val * (0 + 1); omega)).trans ?_
  refine (shapeCast_apply _ shapeCasts_S33000000x1_S33000000 (ix1 e) (ix2 e (0 : Fin 1)) ?_).trans ?_
  · rw [Shape.rowMajor_val_one, Shape.rowMajor_val_two]
    show e.val * 1 + 0 = e.val
    omega
  refine (gather_rows_apply (N := 1000000) (C := 1) (M := 33000000) (by decide) gather_S1000000x1_S33000000x1_S33000000x1_1_0_n_n_0_1_11.wf _ _ e (0 : Fin 1)).trans ?_
  have hb : broadcastInDim S33000000x1 ![0] bcast_S33000000_S33000000x1_0 (wrapK r) (ix2 e (0 : Fin 1)) = wrapK r (ix1 e) :=
    broadcastInDim_apply _ bcast_S33000000_S33000000x1_0 _ (ix2 e (0 : Fin 1)) (ix1 e) (fun a => match a with
      | ⟨0, _⟩ => by show e.val = if (33000000 : Nat) = 1 then 0 else e.val; rw [if_neg (by decide)])
  rw [hb]
  refine extractStridedSlice_apply ![0, 0] nodeCol slices_S1003520x1_S1000000x1_0_0 (ix2 (clampRow 1000000 (by decide) (wrapK r (ix1 e))) (0 : Fin 1)) (ix2 n' (0 : Fin 1)) (fun a => match a with
    | ⟨0, _⟩ => by show n'.val = 0 + (node (wrapK r (ix1 e))).val; rw [hn]; omega
    | ⟨1, _⟩ => by show (0 : Nat) = 0 + 0; rfl)

/-- Row n < N of the node features padded with zero rows is row n of the features. -/
theorem padX_apply (x0 : (⟨S1000000x3, .f32⟩ : BufTy).Contents (Elt Ideal)) (n : Fin 1000000) (n' : Fin 1003520) (hn : n'.val = n.val) (k : Fin 3) :
    pad S1003520x3 ![0, 0] ![3520, 0] ![0, 0] x0 zeroK pads_S1000000x3_S1003520x3_035200_000 h_S_ (ix2 n' k) = x0 (ix2 n k) :=
  pad_apply_of_inside ![0, 0] ![3520, 0] ![0, 0] x0 zeroK pads_S1000000x3_S1003520x3_035200_000 h_S_ (ix2 n' k) (ix2 n k) (fun a => match a with
    | ⟨0, _⟩ => by show n'.val = 0 + n.val * (0 + 1); omega
    | ⟨1, _⟩ => by show k.val = 0 + k.val * (0 + 1); omega)

/-- Row n < N of the degree column padded with zero rows is the degree of node n. -/
theorem padDeg_apply (deg : (⟨S1000000, .f32⟩ : BufTy).Contents (Elt Ideal)) (n : Fin 1000000) (n' : Fin 1003520) (hn : n'.val = n.val) :
    pad S1003520x1 ![0, 0] ![3520, 0] ![0, 0] (broadcastInDim S1000000x1 ![0] bcast_S1000000_S1000000x1_0 deg) zeroK pads_S1000000x1_S1003520x1_035200_000 h_S_ (ix2 n' (0 : Fin 1))
      = deg (ix1 n) := by
  refine (pad_apply_of_inside ![0, 0] ![3520, 0] ![0, 0] _ zeroK pads_S1000000x1_S1003520x1_035200_000 h_S_ (ix2 n' (0 : Fin 1)) (ix2 n (0 : Fin 1)) (fun a => match a with
    | ⟨0, _⟩ => by show n'.val = 0 + n.val * (0 + 1); omega
    | ⟨1, _⟩ => by show (0 : Nat) = 0 + 0 * (0 + 1); rfl)).trans ?_
  exact broadcastInDim_apply _ bcast_S1000000_S1000000x1_0 deg (ix2 n (0 : Fin 1)) (ix1 n) (fun a => match a with
    | ⟨0, _⟩ => by show n.val = if (1000000 : Nat) = 1 then 0 else n.val; rw [if_neg (by decide)])

end Cert.KernelIdeal.LayoutValue

end
-- ==== Proof.RegionArrays.lean ====
/- The values of the two kernel regions' output arrays, read at an index.

   Each region is a grid of points; point t reads block t of each input array (rows 4096·t … 4096·t + 4095; the 1×3 weight
   row whole at every point) and writes block t of each output array. The body of each point is one pure function of the
   blocks it loaded. Per output array: (i) what a point writes back is block t of ONE function of the whole input arrays,
   index by index; (ii) every row r lies in the block of the point r / 4096; so (iii) after the region the array holds
   that function everywhere. The three functions: for an edge row, the product of the three factors; for a node row, the
   inner product of the node's three features with the weight row; and the reciprocal square root of the degree where the
   degree is positive, zero elsewhere. -/
import proofs.«175853_j19602230739360_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.RegionArrays

open Cert.KernelIdeal Cert.KernelIdeal.Gen Idealize.ShloMosaic Idealize.ShloMosaic.TcCoe Idealize.SL.Sem
open Idealize.ShloMosaic.Pipeline (Dat)
open Idealize.ShloMosaic.ValueIdx (ix1 ix2 eq_ix2)

variable (V : (c : Dev nD) → (b : Ref sig .tc) → Buf (Elt Ideal) ((c : Thread nD τ).loc b))

/-- The product of two extended reals. -/
local notation:70 a:70 " *ᵉ " b:71 => @HMul.hMul EReal EReal EReal instHMul a b

/-- The zero offsets of a whole-buffer access, as a constant function. -/
theorem zero_offsets : (![0, 0] : Fin 2 → Nat) = fun _ => 0 := funext fun a => by fin_cases a <;> rfl

/-! ## The edge region: each row's three factors multiplied -/

/-- The product of three arrays, index by index. -/
abbrev edgeProd (a b d : S258048x128.Idx → EReal) : S258048x128.Idx → EReal := fun i => a i * b i * d i

/-- The body's result is the pointwise product of its three loaded blocks. -/
theorem edge_payload (x0 x1 x2 : Vec Ideal S4096x128 .f32) (j : S4096x128.Idx) :
    k1_pay1 x0 x1 x2 j = x0 j * x1 j * x2 j := by
  unfold k1_pay1
  simp only [shapeCast_self]
  rfl

/-- The four windows move together: at point t each holds row-block t, column-block 0. -/
theorem edge_index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0) :=
  (by decide +kernel : ∀ t : Fin grid1.N, _)

/-- What point t writes back to the product array is block t of the product of the three whole arrays. -/
theorem edge_flushed (c : Dev nD) (t : Fin cfg1.N) :
    (dat1 (F := Ideal) V c).flushed 3 t
      = ((cfg1.win 3).blk t).view.read (Elt Ideal) (edgeProd (V c main_v44) (V c main_v45) (V c main_v46)) := by
  show (cfg1.win 3).cut (grid1.coords t) ((dat1 (F := Ideal) V c).after 3 t) = _
  rw [after1_3]
  unfold out1_3
  rw [View.canon_unit_zero zero_offsets]
  simp only [View.ld_unit_zero (S := S4096x128) zero_offsets]
  obtain ⟨⟨e00, e01⟩, ⟨e10, e11⟩, ⟨e20, e21⟩, ⟨e30, e31⟩⟩ := edge_index_facts t
  funext j
  refine (edge_payload _ _ _ j).trans ?_
  show V c main_v44 (((cfg1.win 0).blk t).view.emb j) *ᵉ V c main_v45 (((cfg1.win 1).blk t).view.emb j) *ᵉ V c main_v46 (((cfg1.win 2).blk t).view.emb j)
    = V c main_v44 (((cfg1.win 3).blk t).view.emb j) *ᵉ V c main_v45 (((cfg1.win 3).blk t).view.emb j) *ᵉ V c main_v46 (((cfg1.win 3).blk t).view.emb j)
  have h0 : ((cfg1.win 0).blk t).view.emb j = ((cfg1.win 3).blk t).view.emb j := by
    funext a; apply Fin.ext
    match a with
    | ⟨0, _⟩ => show win1_0.index t (0 : Fin 2) * 4096 + 1 * (j 0).val = win1_3.index t (0 : Fin 2) * 4096 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 4096 + 1 * (j 0).val = win1_3.index t (0 : Fin 2) * 4096 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb j = ((cfg1.win 3).blk t).view.emb j := by
    funext a; apply Fin.ext
    match a with
    | ⟨0, _⟩ => show win1_2.index t (0 : Fin 2) * 4096 + 1 * (j 0).val = win1_3.index t (0 : Fin 2) * 4096 + 1 * (j 0).val; omega
    | ⟨1, _⟩ => show win1_2.index t (1 : Fin 2) * 128 + 1 * (j 1).val = win1_3.index t (1 : Fin 2) * 128 + 1 * (j 1).val; omega
  rw [h0, h1, h2]

/-- A row of the product array is in point t's block iff each coordinate is in the block's range. -/
theorem edge_mem_blk (t : Fin cfg1.N) (i : S258048x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v47).slice (win1_3.rect t)).set ↔ _
  rw [View.set_slice_whole, Rect.mem_set_unit]
  exact Iff.rfl

/-- Every index is in the block of the point its row divided by 4096 names. -/
theorem edge_cover (i : S258048x128.Idx) :
    ∃ t : Fin cfg1.N, (cfg1.win 3).flush t = true ∧ i ∈ ((cfg1.win 3).blk t).view.set := by
  have hi0 : (i 0).val < 258048 := (i 0).isLt
  have hi1 : (i 1).val < 128 := (i 1).isLt
  have hN : cfg1.N = 63 := N_1
  let t : Fin cfg1.N := ⟨(i 0).val / 4096, by rw [hN]; omega⟩
  obtain ⟨-, -, -, ⟨e30, e31⟩⟩ := edge_index_facts t
  have ht : t.val = (i 0).val / 4096 := rfl
  refine ⟨t, flush1_3 t, ?_⟩
  rw [edge_mem_blk]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 128 ≤ (i 1).val ∧ (i 1).val < win1_3.index t (1 : Fin 2) * 128 + 128; omega

/-- After the edge region the product array holds the product of the three factor arrays. -/
theorem edge_array (c : Dev nD) :
    (dat1 (F := Ideal) V c).arrAt 3 cfg1.N = edgeProd (V c main_v44) (V c main_v45) (V c main_v46) :=
  (dat1 (F := Ideal) V c).arrAt_eq_of_cover 3 _ (fun t _ => edge_flushed V c t) edge_cover

theorem edge_msg (c : Dev nD) (r : Fin 258048) (l : Fin 128) :
    (dat1 (F := Ideal) V c).arrAt 3 cfg1.N (ix2 r l)
      = V c main_v44 (ix2 r l) *ᵉ V c main_v45 (ix2 r l) *ᵉ V c main_v46 (ix2 r l) :=
  congrFun (edge_array V c) (ix2 r l)

/-! ## The node region: the index maps and the cover, shared by its two output columns -/

/-- At point t the feature block, the degree block and both output blocks are row-block t, column-block 0; the weight
    row's block is the whole row at every point. -/
theorem node_index_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-! ## The node region, second output: the degree's reciprocal square root where the degree is positive -/

/-- One entry of the scaling column from the degree d: the reciprocal square root of d when d is greater than the zero
    word's value, and that zero otherwise. -/
def dinvK (d : EReal) : EReal :=
  Scalar.select (FloatOps.cmpf (F := Ideal) (φ := .f32) .ogt d (Scalar.ofBits (F := Ideal) .f32 0x00000000#32))
    (FloatOps.rsqrt (F := Ideal) (φ := .f32) d) (Scalar.ofBits (F := Ideal) .f32 0x00000000#32)

/-- The scaling column of a whole degree column. -/
abbrev dinvCol (d : S1003520x1.Idx → EReal) : S1003520x1.Idx → EReal := fun i => dinvK (d i)

/-- The body's second result, entry by entry, is that function of its loaded degree block. -/
theorem dinv_payload (x2 : Vec Ideal S4096x1 .f32) (j : S4096x1.Idx) : k0_pay2 x2 j = dinvK (x2 j) := by
  unfold k0_pay2 dinvK
  simp only [shapeCast_self]
  rfl

/-- What point t writes back to the scaling column is block t of the scaling column of the whole degree column. -/
theorem dinv_flushed (c : Dev nD) (t : Fin cfg0.N) :
    (dat0 (F := Ideal) V c).flushed 4 t
      = ((cfg0.win 4).blk t).view.read (Elt Ideal) (dinvCol (V c main_v13)) := by
  show (cfg0.win 4).cut (grid0.coords t) ((dat0 (F := Ideal) V c).after 4 t) = _
  rw [after0_4]
  unfold out0_4
  rw [View.canon_unit_zero zero_offsets]
  simp only [View.ld_unit_zero (S := S4096x1) zero_offsets]
  obtain ⟨-, -, ⟨e20, e21⟩, -, ⟨e40, e41⟩⟩ := node_index_facts t
  funext j
  refine (dinv_payload _ j).trans ?_
  show dinvK (V c main_v13 (((cfg0.win 2).blk t).view.emb j)) = dinvK (V c main_v13 (((cfg0.win 4).blk t).view.emb j))
  have h2 : ((cfg0.win 2).blk t).view.emb j = ((cfg0.win 4).blk t).view.emb j := by
    funext a; apply Fin.ext
    match a with
    | ⟨0, _⟩ => show win0_2.index t (0 : Fin 2) * 4096 + 1 * (j 0).val = win0_4.index t (0 : Fin 2) * 4096 + 1 * (j 0).val; omega
    | ⟨1, _⟩ => show win0_2.index t (1 : Fin 2) * 1 + 1 * (j 1).val = win0_4.index t (1 : Fin 2) * 1 + 1 * (j 1).val; omega
  rw [h2]

/-- An index of the scaling column is in point t's block iff each coordinate is in the block's range. -/
theorem dinv_mem_blk (t : Fin cfg0.N) (i : S1003520x1.Idx) :
    i ∈ ((cfg0.win 4).blk t).view.set ↔ ∀ a : Fin 2, win0_4.index t a * S4096x1.size a ≤ (i a).val ∧ (i a).val < win0_4.index t a * S4096x1.size a + S4096x1.size a := by
  show i ∈ ((View.whole main_v14_1).slice (win0_4.rect t)).set ↔ _
  rw [View.set_slice_whole, Rect.mem_set_unit]
  exact Iff.rfl

/-- Every index is in the block of the point its row divided by 4096 names. -/
theorem dinv_cover (i : S1003520x1.Idx) :
    ∃ t : Fin cfg0.N, (cfg0.win 4).flush t = true ∧ i ∈ ((cfg0.win 4).blk t).view.set := by
  have hi0 : (i 0).val < 1003520 := (i 0).isLt
  have hi1 : (i 1).val < 1 := (i 1).isLt
  have hN : cfg0.N = 245 := N_0
  let t : Fin cfg0.N := ⟨(i 0).val / 4096, by rw [hN]; omega⟩
  obtain ⟨-, -, -, -, ⟨e40, e41⟩⟩ := node_index_facts t
  have ht : t.val = (i 0).val / 4096 := rfl
  refine ⟨t, flush0_4 t, ?_⟩
  rw [dinv_mem_blk]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 1 ≤ (i 1).val ∧ (i 1).val < win0_4.index t (1 : Fin 2) * 1 + 1; omega

/-- After the node region the scaling column holds the scaling column of the degree column. -/
theorem dinv_array (c : Dev nD) :
    (dat0 (F := Ideal) V c).arrAt 4 cfg0.N = dinvCol (V c main_v13) :=
  (dat0 (F := Ideal) V c).arrAt_eq_of_cover 4 _ (fun t _ => dinv_flushed V c t) dinv_cover

theorem node_dinv (c : Dev nD) (r : Fin 1003520) :
    (dat0 (F := Ideal) V c).arrAt 4 cfg0.N (ix2 r (0 : Fin 1)) = dinvK (V c main_v13 (ix2 r (0 : Fin 1))) :=
  congrFun (dinv_array V c) (ix2 r (0 : Fin 1))

/-! ## The node region, first output: each node's three features against the weight row -/

/-- Column k of the row that an index of a one-column array names. -/
abbrev rowCol (i : S1003520x1.Idx) (k : Fin 3) : S1003520x3.Idx := fun a => match a with
  | ⟨0, _⟩ => ⟨(i 0).val, (i 0).isLt⟩
  | ⟨1, _⟩ => k

/-- The inner product of every row of a three-column array with the one row of a [1, 3] array, as a one-column array. -/
def rowDot (x : S1003520x3.Idx → EReal) (w : S1x3.Idx → EReal) : S1003520x1.Idx → EReal :=
  fun i => ∑ k : Fin 3, x (rowCol i k) *ᵉ w (ix2 (0 : Fin 1) k)

theorem rowDot_apply (x : S1003520x3.Idx → EReal) (w : S1x3.Idx → EReal) (i : S1003520x1.Idx) :
    rowDot x w i = ∑ k : Fin 3, x (rowCol i k) *ᵉ w (ix2 (0 : Fin 1) k) := rfl

/-- The contraction keeps the left operand's row: axis 0 of the left index is axis 0 of the result index. -/
theorem h_lhs_row (i : S4096x1.Idx) (q : dot_S4096x3_S3x1_S4096x1_1_0_0_1_n_n.contr.Idx) :
    (dot_S4096x3_S3x1_S4096x1_1_0_0_1_n_n.lhsIdx i q 0).val = (i 0).val := by
  unfold DotDims.lhsIdx
  rw [dif_neg (show ¬(0 : Fin S4096x3.rank) ∈ dot_S4096x3_S3x1_S4096x1_1_0_0_1_n_n.lhsBatch by decide), dif_pos (show (0 : Fin S4096x3.rank) ∈ dot_S4096x3_S3x1_S4096x1_1_0_0_1_n_n.lhsNonContracting by decide)]
  rfl

/-- It keeps the right operand's column: axis 1 of the right index is axis 1 of the result index. -/
theorem h_rhs_col (i : S4096x1.Idx) (q : dot_S4096x3_S3x1_S4096x1_1_0_0_1_n_n.contr.Idx) :
    (dot_S4096x3_S3x1_S4096x1_1_0_0_1_n_n.rhsIdx i q 1).val = (i 1).val := by
  unfold DotDims.rhsIdx
  rw [dif_neg (show ¬(1 : Fin S3x1.rank) ∈ dot_S4096x3_S3x1_S4096x1_1_0_0_1_n_n.rhsBatch by decide), dif_pos (show (1 : Fin S3x1.rank) ∈ dot_S4096x3_S3x1_S4096x1_1_0_0_1_n_n.rhsNonContracting by decide)]
  rfl

/-- The body's first result at row p: the matrix product of the feature block with the transposed weight row, into a
    zero accumulator, is the sum over the three features of feature times weight. -/
theorem h_payload (x0 : Vec Ideal S4096x3 .f32) (x1 : Vec Ideal S1x3 .f32) (p : Fin 4096) :
    k0_pay1 x0 x1 (ix2 p (0 : Fin 1)) = ∑ k : Fin 3, x0 (ix2 p k) *ᵉ x1 (ix2 (0 : Fin 1) k) := by
  unfold k0_pay1
  rw [shapeCast_self]
  refine (Ideal.matmul_constant_zero_apply dot_S4096x3_S3x1_S4096x1_1_0_0_1_n_n (some .fp32) x0
    (transpose S3x1 [1, 0] x1 transposes_S1x3_p1_0_S3x1) (ix2 p (0 : Fin 1))).trans ?_
  rw [← Equiv.sum_comp (ValueIdx.contrEquiv1 dot_S4096x3_S3x1_S4096x1_1_0_0_1_n_n 3 rfl rfl).symm]
  refine Finset.sum_congr rfl fun k _ => ?_
  have hk := ValueIdx.contrEquiv1_symm_val dot_S4096x3_S3x1_S4096x1_1_0_0_1_n_n 3 rfl rfl k
  have el : dot_S4096x3_S3x1_S4096x1_1_0_0_1_n_n.lhsIdx (ix2 p (0 : Fin 1)) ((ValueIdx.contrEquiv1 dot_S4096x3_S3x1_S4096x1_1_0_0_1_n_n 3 rfl rfl).symm k) = ix2 p k := funext fun a => Fin.ext (by
    match a with
    | ⟨0, _⟩ => exact h_lhs_row _ _
    | ⟨1, _⟩ => exact (dot_S4096x3_S3x1_S4096x1_1_0_0_1_n_n.lhsIdx_val_of_single rfl _ _).trans hk)
  have er : dot_S4096x3_S3x1_S4096x1_1_0_0_1_n_n.rhsIdx (ix2 p (0 : Fin 1)) ((ValueIdx.contrEquiv1 dot_S4096x3_S3x1_S4096x1_1_0_0_1_n_n 3 rfl rfl).symm k) = ix2 k (0 : Fin 1) := funext fun a => Fin.ext (by
    match a with
    | ⟨0, _⟩ => exact (dot_S4096x3_S3x1_S4096x1_1_0_0_1_n_n.rhsIdx_val_of_single rfl _ _).trans hk
    | ⟨1, _⟩ => exact h_rhs_col _ _)
  rw [el, er]
  exact congrArg (x0 (ix2 p k) *ᵉ ·) (transpose_apply [1, 0] x1 transposes_S1x3_p1_0_S3x1 (ix2 k (0 : Fin 1)) (ix2 (0 : Fin 1) k) (fun b => match b with
    | ⟨0, _⟩ => rfl
    | ⟨1, _⟩ => rfl))

/-- What point t writes back to the product column is block t of the row products of the whole feature array with the
    weight row. -/
theorem h_flushed (c : Dev nD) (t : Fin cfg0.N) :
    (dat0 (F := Ideal) V c).flushed 3 t
      = ((cfg0.win 3).blk t).view.read (Elt Ideal) (rowDot (V c main_v12) (V c main_arg1)) := by
  show (cfg0.win 3).cut (grid0.coords t) ((dat0 (F := Ideal) V c).after 3 t) = _
  rw [after0_3]
  unfold out0_3
  rw [View.canon_unit_zero zero_offsets]
  simp only [View.ld_unit_zero (S := S4096x3) zero_offsets, View.ld_unit_zero (S := S1x3) zero_offsets]
  obtain ⟨⟨e00, e01⟩, ⟨e10, e11⟩, -, ⟨e30, e31⟩, -⟩ := node_index_facts t
  funext j
  obtain ⟨p, rfl⟩ : ∃ p : Fin 4096, j = ix2 p (0 : Fin 1) := ⟨⟨(j 0).val, (j 0).isLt⟩, funext fun a => Fin.ext (by
    match a with
    | ⟨0, _⟩ => rfl
    | ⟨1, _⟩ => have hj1 : (j 1).val < 1 := (j 1).isLt; show (j 1).val = 0; omega)⟩
  refine (h_payload _ _ p).trans ?_
  show ∑ k : Fin 3, V c main_v12 (((cfg0.win 0).blk t).view.emb (ix2 p k)) *ᵉ V c main_arg1 (((cfg0.win 1).blk t).view.emb (ix2 (0 : Fin 1) k))
    = rowDot (V c main_v12) (V c main_arg1) (((cfg0.win 3).blk t).view.emb (ix2 p (0 : Fin 1)))
  rw [rowDot_apply]
  refine Finset.sum_congr rfl fun k _ => ?_
  have h0 : ((cfg0.win 0).blk t).view.emb (ix2 p k) = rowCol (((cfg0.win 3).blk t).view.emb (ix2 p (0 : Fin 1))) k := by
    funext a; apply Fin.ext
    match a with
    | ⟨0, _⟩ => show win0_0.index t (0 : Fin 2) * 4096 + 1 * p.val = win0_3.index t (0 : Fin 2) * 4096 + 1 * p.val; omega
    | ⟨1, _⟩ => show win0_0.index t (1 : Fin 2) * 3 + 1 * k.val = k.val; omega
  have h1 : ((cfg0.win 1).blk t).view.emb (ix2 (0 : Fin 1) k) = ix2 (0 : Fin 1) k := by
    funext a; apply Fin.ext
    match a with
    | ⟨0, _⟩ => show win0_1.index t (0 : Fin 2) * 1 + 1 * 0 = 0; omega
    | ⟨1, _⟩ => show win0_1.index t (1 : Fin 2) * 3 + 1 * k.val = k.val; omega
  rw [h0, h1]

/-- An index of the product column is in point t's block iff each coordinate is in the block's range. -/
theorem h_mem_blk (t : Fin cfg0.N) (i : S1003520x1.Idx) :
    i ∈ ((cfg0.win 3).blk t).view.set ↔ ∀ a : Fin 2, win0_3.index t a * S4096x1.size a ≤ (i a).val ∧ (i a).val < win0_3.index t a * S4096x1.size a + S4096x1.size a := by
  show i ∈ ((View.whole main_v14_0).slice (win0_3.rect t)).set ↔ _
  rw [View.set_slice_whole, Rect.mem_set_unit]
  exact Iff.rfl

/-- Every index is in the block of the point its row divided by 4096 names. -/
theorem h_cover (i : S1003520x1.Idx) :
    ∃ t : Fin cfg0.N, (cfg0.win 3).flush t = true ∧ i ∈ ((cfg0.win 3).blk t).view.set := by
  have hi0 : (i 0).val < 1003520 := (i 0).isLt
  have hi1 : (i 1).val < 1 := (i 1).isLt
  have hN : cfg0.N = 245 := N_0
  let t : Fin cfg0.N := ⟨(i 0).val / 4096, by rw [hN]; omega⟩
  obtain ⟨-, -, -, ⟨e30, e31⟩, -⟩ := node_index_facts t
  have ht : t.val = (i 0).val / 4096 := rfl
  refine ⟨t, flush0_3 t, ?_⟩
  rw [h_mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 1 ≤ (i 1).val ∧ (i 1).val < win0_3.index t (1 : Fin 2) * 1 + 1; omega

/-- After the node region the product column holds the row products of the feature array with the weight row. -/
theorem h_array (c : Dev nD) :
    (dat0 (F := Ideal) V c).arrAt 3 cfg0.N = rowDot (V c main_v12) (V c main_arg1) :=
  (dat0 (F := Ideal) V c).arrAt_eq_of_cover 3 _ (fun t _ => h_flushed V c t) h_cover

theorem node_h (c : Dev nD) (r : Fin 1003520) :
    (dat0 (F := Ideal) V c).arrAt 3 cfg0.N (ix2 r (0 : Fin 1))
      = (∑ k : Fin 3, V c main_v12 (ix2 r k) *ᵉ V c main_arg1 (ix2 (0 : Fin 1) k) : EReal) := by
  have h : rowDot (V c main_v12) (V c main_arg1) (ix2 r (0 : Fin 1))
      = ∑ k : Fin 3, V c main_v12 (ix2 r k) *ᵉ V c main_arg1 (ix2 (0 : Fin 1) k) := by
    rw [rowDot_apply]
    refine Finset.sum_congr rfl fun k _ => ?_
    have e : rowCol (ix2 r (0 : Fin 1)) k = ix2 r k := funext fun a => by
      match a with
      | ⟨0, _⟩ => rfl
      | ⟨1, _⟩ => rfl
    rw [e]
  exact (congrFun (h_array V c) (ix2 r (0 : Fin 1))).trans h

end Cert.KernelIdeal.RegionArrays

end
-- ==== Proof.RefUpdate.lean ====
/-
  The reference's message on one edge, read at the edge's index.

  The reference is a graph-convolution layer with self loops: node n has degree deg[n] (the number of edges whose
  target is n), degree factor dinv[n] = rsqrt(deg[n]) where deg[n] > 0 and 0 elsewhere, and feature h[n] = Σ_k x[n,k]·W[0,k].
  Edge e, with source row r(e) and target row c(e) (row numbers with negatives wrapped, read signed and clamped by
  the gathers), carries the message  (dinv[r(e)] · dinv[c(e)]) · h[r(e)].  This file reads the program's message array
  at (e, 0) as exactly that product, the degree array and the wrapped row-number arrays left as they are.
-/
import proofs.«175853_j19602230739360_1_alg».proof.Proof.RefRead
import proofs.«175853_j19602230739360_1_alg».proof.Proof.LibGatherRows
import Idealize.ShloMosaic.Lib.ValueIdx
import Idealize.ShloMosaic.PureOps.Ideal.Laws

noncomputable section

namespace Cert.ReferenceIdeal.RefValue

open Cert.ReferenceIdeal Cert.ReferenceIdeal.ReadP Cert.GatherRows Idealize.ShloMosaic Idealize.ShloMosaic.ValueIdx

/-- the reference's degree factor on one value -/
def dinvR (d : EReal) : EReal :=
  Scalar.select (FloatOps.cmpf (F := Ideal) .ogt d (FloatOps.ofBits (F := Ideal) .f32 0x00000000#32))
    (FloatOps.hostUnary (F := Ideal) (φ := .f32) .rsqrt d) (FloatOps.ofBits (F := Ideal) .f32 0x00000000#32)

/-- The degree-factor array at a node is the degree factor of the degree at that node. -/
theorem dinv_at (x3 : (⟨S2x32000000, .i32⟩ : BufTy).Contents (Elt Ideal)) (i : S1000000.Idx) :
    val_main_v14 (F := Ideal) x3 i = dinvR (val_main_v10 (F := Ideal) x3 i) := by
  rw [val_main_v14_apply, val_main_v12_apply, val_main_v13_apply, val_main_call0_v1_apply, val_main_v11_apply]
  generalize val_main_v10 (F := Ideal) x3 i = d
  rfl

/-- The column of row numbers at (e, 0) is the row-number vector at e (three broadcasts of one form). -/
theorem col_idx (e : Fin 33000000) : idx_main_v20 (ix2 e (0 : Fin 1)) = ix1 e := by
  funext a
  match a with
  | ⟨0, _⟩ => rfl

/-- The source's degree factor gathered at edge e. -/
theorem v21_at (x3 : (⟨S2x32000000, .i32⟩ : BufTy).Contents (Elt Ideal)) (e : Fin 33000000) :
    val_main_v21 (F := Ideal) x3 (ix1 e)
      = dinvR (val_main_v10 (F := Ideal) x3 (ix1 (clampRow 1000000 (by decide) (val_main_v19 (F := Ideal) x3 (ix1 e))))) := by
  unfold val_main_v21
  refine (gather_vec_apply (N := 1000000) (M := 33000000) (by decide) _ _ _ e).trans ?_
  rw [dinv_at, val_main_v20_apply, col_idx]

/-- The target's degree factor gathered at edge e. -/
theorem v28_at (x3 : (⟨S2x32000000, .i32⟩ : BufTy).Contents (Elt Ideal)) (e : Fin 33000000) :
    val_main_v28 (F := Ideal) x3 (ix1 e)
      = dinvR (val_main_v10 (F := Ideal) x3 (ix1 (clampRow 1000000 (by decide) (val_main_v26 (F := Ideal) x3 (ix1 e))))) := by
  unfold val_main_v28
  refine (gather_vec_apply (N := 1000000) (M := 33000000) (by decide) _ _ _ e).trans ?_
  rw [dinv_at, val_main_v27_apply]
  exact congrArg (fun j => dinvR (val_main_v10 (F := Ideal) x3 (ix1 (clampRow 1000000 (by decide) (val_main_v26 (F := Ideal) x3 j)))))
    (col_idx e)

/-- The feature of node n: the row x[n, ·] against the weight row W[0, ·]. -/
theorem feat_at (x0 : (⟨S1000000x3, .f32⟩ : BufTy).Contents (Elt Ideal)) (x1 : (⟨S1x3, .f32⟩ : BufTy).Contents (Elt Ideal))
    (n : Fin 1000000) :
    val_main_v31 (F := Ideal) x0 x1 (ix2 n (0 : Fin 1)) = ∑ k : Fin 3, x0 (ix2 n k) * x1 (ix2 (0 : Fin 1) k) := by
  rw [val_main_v31_apply]
  refine Finset.sum_congr rfl fun k _ => ?_
  rw [val_main_v30_apply]
  have hl : lidx_main_v31 (ix2 n (0 : Fin 1)) k = ix2 n k := funext fun a => Fin.ext (by
    match a with
    | ⟨0, _⟩ => rfl
    | ⟨1, _⟩ => rfl)
  have hr : idx_main_v30 (ridx_main_v31 (ix2 n (0 : Fin 1)) k) = ix2 (0 : Fin 1) k := funext fun a => Fin.ext (by
    match a with
    | ⟨0, _⟩ => rfl
    | ⟨1, _⟩ => rfl)
  rw [hl, hr]

/-- The source's feature gathered at edge e. -/
theorem v39_at (x0 : (⟨S1000000x3, .f32⟩ : BufTy).Contents (Elt Ideal)) (x1 : (⟨S1x3, .f32⟩ : BufTy).Contents (Elt Ideal))
    (x3 : (⟨S2x32000000, .i32⟩ : BufTy).Contents (Elt Ideal)) (e : Fin 33000000) :
    val_main_v39 (F := Ideal) x0 x1 x3 (ix2 e (0 : Fin 1))
      = ∑ k : Fin 3, x0 (ix2 (clampRow 1000000 (by decide) (val_main_v37 (F := Ideal) x3 (ix1 e))) k) * x1 (ix2 (0 : Fin 1) k) := by
  unfold val_main_v39
  refine (gather_rows_apply (N := 1000000) (C := 1) (M := 33000000) (by decide) _ _ _ e (0 : Fin 1)).trans ?_
  rw [feat_at, val_main_v38_apply]
  exact congrArg (fun j => ∑ k : Fin 3, x0 (ix2 (clampRow 1000000 (by decide) (val_main_v37 (F := Ideal) x3 j)) k) * x1 (ix2 (0 : Fin 1) k))
    (col_idx e)

/-- THE MESSAGE ON EDGE e: the two degree factors' product times the source's feature. -/
theorem update_apply (x0 : (⟨S1000000x3, .f32⟩ : BufTy).Contents (Elt Ideal)) (x1 : (⟨S1x3, .f32⟩ : BufTy).Contents (Elt Ideal))
    (x3 : (⟨S2x32000000, .i32⟩ : BufTy).Contents (Elt Ideal)) (e : Fin 33000000) :
    val_main_v40 (F := Ideal) x0 x1 x3 (ix2 e (0 : Fin 1))
      = (dinvR (val_main_v10 (F := Ideal) x3 (ix1 (clampRow 1000000 (by decide) (val_main_v19 (F := Ideal) x3 (ix1 e)))))
          * dinvR (val_main_v10 (F := Ideal) x3 (ix1 (clampRow 1000000 (by decide) (val_main_v26 (F := Ideal) x3 (ix1 e))))))
        * ∑ k : Fin 3, x0 (ix2 (clampRow 1000000 (by decide) (val_main_v37 (F := Ideal) x3 (ix1 e))) k) * x1 (ix2 (0 : Fin 1) k) := by
  refine (val_main_v40_apply x0 x1 x3 _).trans ?_
  refine (Ideal.mulf_def _ _).trans ?_
  refine congrArg₂ (· * ·) ?_ (v39_at x0 x1 x3 e)
  refine (val_main_v32_apply x3 _).trans ?_
  refine (congrArg (val_main_v29 (F := Ideal) x3) (col_idx e)).trans ?_
  refine (val_main_v29_apply x3 _).trans ?_
  refine (Ideal.mulf_def _ _).trans ?_
  exact congrArg₂ (· * ·) (v21_at x3 e) (v28_at x3 e)

/-- The degree factor with the host's reciprocal square root named as the extended reals' one (the function a kernel's
    reciprocal square root is too); the comparison and the zero word stay as they are. -/
theorem dinvR_eq (d : EReal) :
    dinvR d = Scalar.select (FloatOps.cmpf (F := Ideal) .ogt d (Scalar.ofBits (F := Ideal) .f32 0x00000000#32)) (Ideal.rsqrt d)
      (Scalar.ofBits (F := Ideal) .f32 0x00000000#32) := rfl

/-- The same with the instance's comparison and constant named as the extended reals' functions. -/
theorem dinvR_eq_ideal (d : EReal) :
    dinvR d = Scalar.select (Ideal.cmp .ogt d (Ideal.ofBits .f32 0x00000000#32)) (Ideal.rsqrt d)
      (Ideal.ofBits .f32 0x00000000#32) := rfl

/-- The degree factor as a case split: the reciprocal square root of a positive value, zero of any other. -/
theorem dinvR_eq_ite (d : EReal) : dinvR d = if 0 < d then Ideal.rsqrt d else 0 := by
  rw [dinvR_eq_ideal, Ideal.ofBits_zero_f32]
  show Scalar.select (BitVec.ofBool (decide ((0 : EReal) < d))) (Ideal.rsqrt d) 0 = _
  by_cases h : (0 : EReal) < d
  · rw [if_pos h, decide_eq_true h]; exact select_one _ _
  · rw [if_neg h, decide_eq_false h]; exact select_zero _ _

end Cert.ReferenceIdeal.RefValue
-- ==== Proof.Join.lean ====
/-
  The two programs' vocabularies joined. The kernel program and the reference build the edges' source and target
  nodes, the degrees and the wrapped row numbers by the same operations of the edge list, and close with the same
  segment sum and bias; spelt in the two programs' own shapes and dimension records these are the same terms.
-/
import proofs.«175853_j19602230739360_1_alg».proof.Proof.KernelHost
import proofs.«175853_j19602230739360_1_alg».proof.Proof.RefRead

set_option maxRecDepth 16384

noncomputable section

namespace Cert.Proof.Join

open Idealize.ShloMosaic Cert.KernelIdeal.HostValue

/-- The reference's edge list argument, at the kernel program's spelling of its shape. -/
abbrev EdgeList := (⟨Cert.ReferenceIdeal.S2x32000000, .i32⟩ : BufTy).Contents (Elt Ideal)

theorem row_eq (x3 : EdgeList) : rowK x3 = Cert.ReferenceIdeal.ReadP.val_main_v3 (F := Ideal) x3 := rfl
theorem col_eq (x3 : EdgeList) : colK x3 = Cert.ReferenceIdeal.ReadP.val_main_v6 (F := Ideal) x3 := rfl
theorem deg_eq (x3 : EdgeList) : degK x3 = Cert.ReferenceIdeal.ReadP.val_main_v10 (F := Ideal) x3 := rfl
theorem wrapRow_eq (x3 : EdgeList) : wrapK (rowK x3) = Cert.ReferenceIdeal.ReadP.val_main_v19 (F := Ideal) x3 := rfl
theorem wrapCol_eq (x3 : EdgeList) : wrapK (colK x3) = Cert.ReferenceIdeal.ReadP.val_main_v26 (F := Ideal) x3 := rfl
theorem wrapRow_eq' (x3 : EdgeList) : wrapK (rowK x3) = Cert.ReferenceIdeal.ReadP.val_main_v37 (F := Ideal) x3 := rfl

/-- The reference's result is the kernel program's closing segment sum and bias of the reference's own update column. -/
theorem out_eq (x0 : (⟨Cert.ReferenceIdeal.S1000000x3, .f32⟩ : BufTy).Contents (Elt Ideal)) (x1 : (⟨Cert.ReferenceIdeal.S1x3, .f32⟩ : BufTy).Contents (Elt Ideal))
    (x2 : (⟨Cert.ReferenceIdeal.S1, .f32⟩ : BufTy).Contents (Elt Ideal)) (x3 : EdgeList) :
    Cert.ReferenceIdeal.ReadP.val_main_v46 (F := Ideal) x0 x1 x2 x3
      = outK (colK x3) (Cert.ReferenceIdeal.ReadP.val_main_v40 (F := Ideal) x0 x1 x3) x2 := rfl

end Cert.Proof.Join

end
-- ==== Proof.Bridge.lean ====
/-
  The two programs' update columns agree, and so do their results.
  Both programs end with the same step: a column of per-edge messages summed into the edges' target nodes, the bias
  added. The reference's message on edge e is (dinv[r(e)] · dinv[c(e)]) · h[r(e)] with dinv the degree factor, h the
  node feature Σ_k x[n,k]·W[0,k], r(e) / c(e) the edge's wrapped source / target row clamped into the nodes. The kernel
  program computes dinv and h on row blocks of the zero-padded node arrays (the node region), cuts them back to the
  nodes, gathers them out to the edges, pads to whole edge blocks laid in lanes, multiplies lane by lane in the same
  association (the edge region), flattens and cuts back to the edges. Read at edge e = q·128 + l every step lands on
  the same node rows, so the two messages are the same product: no law of arithmetic is used beyond 0 + Σ = Σ inside
  the feature sum, which the region's reading has already taken.
-/
import proofs.«175853_j19602230739360_1_alg».proof.Proof.KernelHost
import proofs.«175853_j19602230739360_1_alg».proof.Proof.KernelLayout
import proofs.«175853_j19602230739360_1_alg».proof.Proof.RegionArrays
import proofs.«175853_j19602230739360_1_alg».proof.Proof.RefUpdate
import proofs.«175853_j19602230739360_1_alg».proof.Proof.Join

set_option maxRecDepth 16384

noncomputable section

namespace Cert.Proof.Bridge

open Cert.KernelIdeal Cert.KernelIdeal.Gen Cert.KernelIdeal.HostValue Cert.KernelIdeal.LayoutValue Cert.KernelIdeal.RegionArrays
open Cert.GatherRows Idealize.ShloMosaic Idealize.ShloMosaic.ValueIdx Idealize.SL.Sem

variable (m : (ℓ : Loc nD τ sig) → Buf (Elt Ideal) ℓ) (ρ : Dev nD → PrngReg)

/-- The four argument arrays of core c, at their literal types. -/
abbrev A0 (c : Dev nD) : (⟨S1000000x3, .f32⟩ : BufTy).Contents (Elt Ideal) := m ((c.tc : Thread nD τ).loc main_arg0)
abbrev A1 (c : Dev nD) : (⟨S1x3, .f32⟩ : BufTy).Contents (Elt Ideal) := m ((c.tc : Thread nD τ).loc main_arg1)
abbrev A2 (c : Dev nD) : (⟨S1, .f32⟩ : BufTy).Contents (Elt Ideal) := m ((c.tc : Thread nD τ).loc main_arg2)
abbrev A3 (c : Dev nD) : (⟨S2x32000000, .i32⟩ : BufTy).Contents (Elt Ideal) := m ((c.tc : Thread nD τ).loc main_arg3)

/-- The node region's degree-factor array at a node row: the kernel's degree factor of the node's degree. -/
theorem dinv_node (c : Dev nD) (n : Fin 1000000) (n' : Fin 1003520) (hn : n'.val = n.val) :
    (dat0 (F := Ideal) (V4 m ρ) c).arrAt 4 cfg0.N (ix2 n' (0 : Fin 1)) = dinvK (degK (A3 m c) (ix1 n)) := by
  refine (node_dinv (V4 m ρ) c n').trans ?_
  have e13 : V4 m ρ c main_v13 = pad S1003520x1 ![0, 0] ![3520, 0] ![0, 0] (broadcastInDim S1000000x1 ![0] bcast_S1000000_S1000000x1_0 (degK (A3 m c))) zeroK pads_S1000000x1_S1003520x1_035200_000 h_S_ :=
    W4_v13 m ρ c
  rw [e13]
  exact congrArg dinvK (padDeg_apply _ n n' hn)

/-- The node region's feature array at a node row: the node's features against the weight row. -/
theorem feat_node (c : Dev nD) (n : Fin 1000000) (n' : Fin 1003520) (hn : n'.val = n.val) :
    (dat0 (F := Ideal) (V4 m ρ) c).arrAt 3 cfg0.N (ix2 n' (0 : Fin 1)) = ∑ k : Fin 3, A0 m c (ix2 n k) * A1 m c (ix2 (0 : Fin 1) k) := by
  refine (node_h (V4 m ρ) c n').trans ?_
  have e12 : V4 m ρ c main_v12 = pad S1003520x3 ![0, 0] ![3520, 0] ![0, 0] (A0 m c) zeroK pads_S1000000x3_S1003520x3_035200_000 h_S_ := W4_v12 m ρ c
  have e1 : V4 m ρ c main_arg1 = A1 m c := W4_arg1 m ρ c
  rw [e12, e1]
  have hs : (∑ k : Fin 3, @HMul.hMul EReal EReal EReal instHMul (pad S1003520x3 ![0, 0] ![3520, 0] ![0, 0] (A0 m c) zeroK pads_S1000000x3_S1003520x3_035200_000 h_S_ (ix2 n' k)) (A1 m c (ix2 (0 : Fin 1) k)) : EReal)
      = ∑ k : Fin 3, A0 m c (ix2 n k) * A1 m c (ix2 (0 : Fin 1) k) :=
    Finset.sum_congr rfl fun k _ => by rw [padX_apply (A0 m c) n n' hn k]
  exact hs

/-- THE KERNEL PROGRAM'S MESSAGE ON EDGE e. -/
theorem update_apply (c : Dev nD) (e : Fin 33000000) :
    updK ((dat1 (F := Ideal) (V12 m ρ) c).arrAt 3 cfg1.N) (ix2 e (0 : Fin 1))
      = (dinvK (degK (A3 m c) (ix1 (node (wrapK (rowK (A3 m c)) (ix1 e)))))
          * dinvK (degK (A3 m c) (ix1 (node (wrapK (colK (A3 m c)) (ix1 e))))))
        * ∑ k : Fin 3, A0 m c (ix2 (node (wrapK (rowK (A3 m c)) (ix1 e))) k) * A1 m c (ix2 (0 : Fin 1) k) := by
  have he := e.isLt
  let q : Fin 258048 := ⟨e.val / 128, by omega⟩
  let l : Fin 128 := ⟨e.val % 128, Nat.mod_lt _ (by decide)⟩
  have h : e.val = q.val * 128 + l.val := by show e.val = e.val / 128 * 128 + e.val % 128; omega
  rw [updK_apply _ e q l h, edge_msg (V12 m ρ) c q l]
  have e3 : W5 m ρ c (Proc.devRef .tc main_v3) = rowK (A3 m c) := W5_v3 m ρ c
  have e6 : W5 m ρ c (Proc.devRef .tc main_v6) = colK (A3 m c) := W5_v6 m ρ c
  have e44 : V12 m ρ c main_v44 = edgeLayK ((dat0 (F := Ideal) (V4 m ρ) c).arrAt 4 cfg0.N) (rowK (A3 m c)) := by
    refine (W12_v44 m ρ c).trans ?_; rw [e3, W5_v14_1]
  have e45 : V12 m ρ c main_v45 = edgeLayK ((dat0 (F := Ideal) (V4 m ρ) c).arrAt 4 cfg0.N) (colK (A3 m c)) := by
    refine (W12_v45 m ρ c).trans ?_; rw [e6, W5_v14_1]
  have e46 : V12 m ρ c main_v46 = edgeLayK ((dat0 (F := Ideal) (V4 m ρ) c).arrAt 3 cfg0.N) (rowK (A3 m c)) := by
    refine (W12_v46 m ρ c).trans ?_; rw [e3, W5_v14_0]
  rw [e44, e45, e46]
  have lift : ∀ n : Fin 1000000, ∃ n' : Fin 1003520, n'.val = n.val := fun n => ⟨⟨n.val, by have := n.isLt; omega⟩, rfl⟩
  obtain ⟨r', hr'⟩ := lift (node (wrapK (rowK (A3 m c)) (ix1 e)))
  obtain ⟨c', hc'⟩ := lift (node (wrapK (colK (A3 m c)) (ix1 e)))
  rw [edgeLayK_apply _ (rowK (A3 m c)) q l e h r' hr', edgeLayK_apply _ (colK (A3 m c)) q l e h c' hc', edgeLayK_apply _ (rowK (A3 m c)) q l e h r' hr']
  rw [dinv_node m ρ c _ r' hr', dinv_node m ρ c _ c' hc', feat_node m ρ c _ r' hr']

/-- The kernel's degree factor on one value is the reference's: the same comparison with the zero word and the same
    selection, the kernel's reciprocal square root and the host's being one function on the extended reals. -/
theorem dinv_eq (d : EReal) : dinvK d = Cert.ReferenceIdeal.RefValue.dinvR d := by
  rw [Cert.ReferenceIdeal.RefValue.dinvR_eq]
  rfl

/-- THE TWO UPDATE COLUMNS AGREE, edge by edge. -/
theorem update_eq (c : Dev nD) :
    updK ((dat1 (F := Ideal) (V12 m ρ) c).arrAt 3 cfg1.N)
      = Cert.ReferenceIdeal.ReadP.val_main_v40 (F := Ideal) (A0 m c) (A1 m c) (A3 m c) := by
  funext i
  obtain ⟨e, z, rfl⟩ : ∃ (e : Fin 33000000) (z : Fin 1), i = ix2 e z := ⟨i 0, i 1, eq_ix2 i⟩
  obtain rfl : z = 0 := Subsingleton.elim _ _
  have hdeg := Cert.Proof.Join.deg_eq (A3 m c)
  have hrow := Cert.Proof.Join.wrapRow_eq (A3 m c)
  have hcol := Cert.Proof.Join.wrapCol_eq (A3 m c)
  rw [update_apply m ρ c e, hdeg, hrow, hcol, dinv_eq, dinv_eq]
  exact (Cert.ReferenceIdeal.RefValue.update_apply _ _ _ e).symm

/-- The kernel program's result buffer at the last boundary is the closing segment sum and bias of the reference's
    update column over the reference's own target nodes: the reference's result. -/
theorem result_eq (c : Dev nD) :
    W14 m ρ c (Proc.devRef .tc main_v56)
      = Cert.ReferenceIdeal.ReadP.val_main_v46 (F := Ideal) (A0 m c) (A1 m c) (A2 m c) (A3 m c) := by
  rw [W14_v56, W13_v6, W13_arg2, W13_v47, update_eq m ρ c]
  exact (Cert.Proof.Join.out_eq (A0 m c) (A1 m c) (A2 m c) (A3 m c)).symm

end Cert.Proof.Bridge

end
-- ==== Proof.lean ====
/-
  The certificate of a graph-convolution layer with self loops (N = 1000000 nodes, 32000000 edges, one output channel)
  written as two pipelined kernels among host operations, against its jnp reference, on the extended reals.

  Both programs compute out[n] = Σ_{e : col(e) = n} (dinv[r(e)] · dinv[c(e)]) · h[r(e)] + b, with deg the number of
  edges into a node (self loop included), dinv = rsqrt(deg) where deg > 0 and 0 elsewhere, h[n] = Σ_k x[n,k]·W[0,k].
  The kernel program computes dinv and h on row blocks of the node arrays padded with zero rows (the node kernel) and
  the product on [4096, 128] blocks of the gathered edge arrays padded with zeros (the edge kernel); the paddings are
  cut off again, and the product has the reference's association. So the two update columns of the closing segment
  sum agree edge by edge (Proof/Bridge.lean), and what follows — the segment sum over the same target nodes, the same
  bias — is the same term of them: the results are equal as extended reals. Nothing is asked of the inputs' finiteness.

  The frames of the two kernel programs are the generated ones; the reference's is its run with the result dropped.
  The ideal pass rewrote nothing, so the idealized program is the program's own text read on the extended reals.
-/
import proofs.«175853_j19602230739360_1_alg».proof.Defs
import proofs.«175853_j19602230739360_1_alg».proof.Proof.Gen.Kernel
import proofs.«175853_j19602230739360_1_alg».proof.Proof.Gen.Kernel.Skeleton
import proofs.«175853_j19602230739360_1_alg».proof.Proof.Gen.Kernel.Launch
import proofs.«175853_j19602230739360_1_alg».proof.Proof.Gen.Kernel.Points
import proofs.«175853_j19602230739360_1_alg».proof.Proof.Gen.Kernel.Frame
import proofs.«175853_j19602230739360_1_alg».proof.Proof.Gen.KernelIdeal
import proofs.«175853_j19602230739360_1_alg».proof.Proof.Gen.KernelIdeal.Skeleton
import proofs.«175853_j19602230739360_1_alg».proof.Proof.Gen.KernelIdeal.Launch
import proofs.«175853_j19602230739360_1_alg».proof.Proof.Gen.KernelIdeal.Points
import proofs.«175853_j19602230739360_1_alg».proof.Proof.Gen.KernelIdeal.Frame
import proofs.«175853_j19602230739360_1_alg».proof.Proof.Gen.ReferenceIdeal
import proofs.«175853_j19602230739360_1_alg».proof.Proof.Gen.Pre_finite_inputs
import proofs.«175853_j19602230739360_1_alg».proof.Proof.KernelRun
import proofs.«175853_j19602230739360_1_alg».proof.Proof.RefRun
import proofs.«175853_j19602230739360_1_alg».proof.Proof.RefRead
import proofs.«175853_j19602230739360_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the four arguments both programs run, and both end with the reference's stage
    `val_main_v46` of the kernel program's arguments in their result buffers. -/
theorem algebraic : Cert.algebraic_KernelIdeal_ReferenceIdeal := by
  intro m ρ m' ρ' _ hagree
  refine ⟨fun c => Cert.ReferenceIdeal.ReadP.val_main_v46 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.Proof.Bridge.result_eq m ρ c), (h c).2⟩)
      (Cert.KernelIdeal.NamedRun.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v46_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
